-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40x128 .f32) (main_arg6 : FVec F S40 .f32) (main_arg7 : FVec F S40x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S40x128 .f32 := Host.absf main_arg5
  let main_cst_6 : FVec F S_ .f32 := constant S_ .f32 0x7F800000#32
  let main_v20 : FVec F S40x128 .f32 := broadcastInDim S40x128 ![] bcast_S_S40x128 main_cst_6
  let main_v21 : IVec S40x128 1 := cmpf .olt main_v19 main_v20
  let main_c_7 : IVec S_ 1 := constantI S_ 1 1#1
  let main_v22 : IVec S_ 1 := (fun x v => Host.reduce IntOp.andi x v reducesTo_S40x128_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S40x128 .f32 := Host.absf main_arg7
  let main_cst_10 : FVec F S_ .f32 := constant S_ .f32 0x7F800000#32
  let main_v30 : FVec F S40x128 .f32 := broadcastInDim S40x128 ![] bcast_S_S40x128 main_cst_10
  let main_v31 : IVec S40x128 1 := cmpf .olt main_v29 main_v30
  let main_c_11 : IVec S_ 1 := constantI S_ 1 1#1
  let main_v32 : IVec S_ 1 := (fun x v => Host.reduce IntOp.andi x v reducesTo_S40x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S40x128 .f32) (main_arg6 : FVec F S40 .f32) (main_arg7 : FVec F S40x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩
abbrev S1x40 : Shape := ⟨2, ![1, 40]⟩
abbrev S100000x40 : Shape := ⟨2, ![100000, 40]⟩
abbrev S2000x40 : Shape := ⟨2, ![2000, 40]⟩

abbrev nBuf : Space → Nat
  | .hbm => 60
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S40x128, .f32⟩
  | .hbm, ⟨6, _⟩ => ⟨S40, .f32⟩
  | .hbm, ⟨7, _⟩ => ⟨S40x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S1x40, .f32⟩
  | .hbm, ⟨59, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S40x128, .f32⟩
  | .local _ .vmem, ⟨14, _⟩ => ⟨S1x40, .f32⟩
  | .local _ .vmem, ⟨15, _⟩ => ⟨S40x128, .f32⟩
  | .local _ .vmem, ⟨16, _⟩ => ⟨S2000x40, .f32⟩
  | .local _ .vmem, ⟨17, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S40x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S40x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  shapeCasts_S40_S1x40 : S40.ShapeCasts S1x40
  inb_S40x128_S40x128_0_0 : ∀ a, (![0, 0] : Fin 2 → Nat) a + S40x128.size a ≤ S40x128.size a
  h_S40x128 : 0 < S40x128.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_1_0_0_n_n_wf : DotDims.WF S2000x128 S128x128 S2000x128 [1] [1] [0] [0] [] []
  dot_S2000x128_S40x128_S2000x40_1_1_0_0_n_n_wf : DotDims.WF S2000x128 S40x128 S2000x40 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S40x128.size a ≤ S40x128.size a
  hwx1_2 : ∀ i : grid1.Coords, EltTy.bits .f32 = 32 ∨ (Rect.block (s := S40x128) S40x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x40.size a ≤ S1x40.size a
  hwx1_3 : ∀ i : grid1.Coords, EltTy.bits .f32 = 32 ∨ (Rect.block (s := S1x40) S1x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S40x128.size a ≤ S40x128.size a
  hwx1_4 : ∀ i : grid1.Coords, EltTy.bits .f32 = 32 ∨ (Rect.block (s := S40x128) S40x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x40.size a ≤ S100000x40.size a
  hwx1_5 : ∀ i : grid1.Coords, EltTy.bits .f32 = 32 ∨ (Rect.block (s := S100000x40) S2000x40.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf
def dot_S2000x128_S40x128_S2000x40_1_1_0_0_n_n : DotDims S2000x128 S40x128 S2000x40 where
  lhsContracting := [1]
  rhsContracting := [1]
  lhsNonContracting := [0]
  rhsNonContracting := [0]
  lhsBatch := []
  rhsBatch := []
  wf := dot_S2000x128_S40x128_S2000x40_1_1_0_0_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S40x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S40x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S128x40 : Shape := ⟨2, ![128, 40]⟩
abbrev S100000x40 : Shape := ⟨2, ![100000, 40]⟩
abbrev S1x40 : Shape := ⟨2, ![1, 40]⟩

abbrev nBuf : Space → Nat
  | .hbm => 113
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S40x128, .f32⟩
  | .hbm, ⟨6, _⟩ => ⟨S40, .f32⟩
  | .hbm, ⟨7, _⟩ => ⟨S40x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S128x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000, .f32⟩
  | .hbm, ⟨51, _⟩ => ⟨S100000x1, .f32⟩
  | .hbm, ⟨52, _⟩ => ⟨S100000x1, .f32⟩
  | .hbm, ⟨53, _⟩ => ⟨S_, .f32⟩
  | .hbm, ⟨54, _⟩ => ⟨S100000x1, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S_, .f32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S128x40, .f32⟩
  | .hbm, ⟨78, _⟩ => ⟨S100000x40, .f32⟩
  | .hbm, ⟨79, _⟩ => ⟨S1x40, .f32⟩
  | .hbm, ⟨80, _⟩ => ⟨S100000x40, .f32⟩
  | .hbm, ⟨81, _⟩ => ⟨S100000x40, .f32⟩
  | .hbm, ⟨82, _⟩ => ⟨S128x40, .f32⟩
  | .hbm, ⟨83, _⟩ => ⟨S100000x40, .f32⟩
  | .hbm, ⟨84, _⟩ => ⟨S100000x40, .f32⟩
  | .hbm, ⟨85, _⟩ => ⟨S100000x40, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x1, .f32⟩
  | .hbm, ⟨90, _⟩ => ⟨S_, .f32⟩
  | .hbm, ⟨91, _⟩ => ⟨S100000x1, .f32⟩
  | .hbm, ⟨92, _⟩ => ⟨S100000x1, .f32⟩
  | .hbm, ⟨93, _⟩ => ⟨S100000x40, .f32⟩
  | .hbm, ⟨94, _⟩ => ⟨S100000x40, .f32⟩
  | .hbm, ⟨95, _⟩ => ⟨S_, .f32⟩
  | .hbm, ⟨96, _⟩ => ⟨S100000x40, .f32⟩
  | .hbm, ⟨97, _⟩ => ⟨S100000x40, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S100000, .f32⟩
  | .hbm, ⟨102, _⟩ => ⟨S100000, .f32⟩
  | .hbm, ⟨103, _⟩ => ⟨S100000x1, .f32⟩
  | .hbm, ⟨104, _⟩ => ⟨S100000x40, .f32⟩
  | .hbm, ⟨105, _⟩ => ⟨S100000x40, .f32⟩
  | .hbm, ⟨106, _⟩ => ⟨S100000x40, .f32⟩
  | .hbm, ⟨107, _⟩ => ⟨S_, .f32⟩
  | .hbm, ⟨108, _⟩ => ⟨S100000, .f32⟩
  | .hbm, ⟨109, _⟩ => ⟨S100000x1, .f32⟩
  | .hbm, ⟨110, _⟩ => ⟨S100000x1, .f32⟩
  | .hbm, ⟨111, _⟩ => ⟨S100000x40, .f32⟩
  | .hbm, ⟨112, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call0_cst : Ref sig .tc := ⟨.hbm, 58, rfl⟩
abbrev main_call0_v0 : Ref sig .tc := ⟨.hbm, 59, rfl⟩
abbrev main_v41 : Ref sig .tc := ⟨.hbm, 60, rfl⟩
abbrev main_c_7 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_10 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_call1_cst : Ref sig .tc := ⟨.hbm, 95, rfl⟩
abbrev main_call1_v0 : Ref sig .tc := ⟨.hbm, 96, rfl⟩
abbrev main_v71 : Ref sig .tc := ⟨.hbm, 97, rfl⟩
abbrev main_call2_cst : Ref sig .tc := ⟨.hbm, 98, rfl⟩
abbrev main_call2_v0 : Ref sig .tc := ⟨.hbm, 99, rfl⟩
abbrev main_call2_cst_0 : Ref sig .tc := ⟨.hbm, 100, rfl⟩
abbrev main_call2_v1 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_v6 : Ref sig .tc := ⟨.hbm, 106, rfl⟩
abbrev main_call2_cst_1 : Ref sig .tc := ⟨.hbm, 107, rfl⟩
abbrev main_call2_v7 : Ref sig .tc := ⟨.hbm, 108, rfl⟩
abbrev main_call2_v8 : Ref sig .tc := ⟨.hbm, 109, rfl⟩
abbrev main_call2_v9 : Ref sig .tc := ⟨.hbm, 110, rfl⟩
abbrev main_call2_v10 : Ref sig .tc := ⟨.hbm, 111, rfl⟩
abbrev main_v72 : Ref sig .tc := ⟨.hbm, 112, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  bcast_S100000x1_S100000x40_0_1 : S100000x1.BroadcastsInDim S100000x40 (![0, 1] : Fin 2 → Fin S100000x40.rank)
  bcast_S_S100000x40 : S_.BroadcastsInDim S100000x40 (![] : Fin 0 → Fin S100000x40.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KRun.lean ====
/-
  The idealised kernel program's run, with its result named.

  The program is four stretches in a row: host operations, the first layer's region, host operations, the second
  layer's region.  The buffer contents at the four boundaries are a fold through the program from the launch memory
  (the generated `W1 … W4`), and every execution ends with every unscoped buffer at the last boundary's contents.
  Read at the result buffer this says what the program returns: `W4` at the second region's output array; read at
  the argument buffers it says they end as launched.
-/
import proofs.«107155_j2190433321456_1_alg».proof.Proof.Gen.KernelIdeal.Frame

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the argument buffers as launched. -/
theorem run_value : θ_run defs (onTc (τ := τ) (main (F := F))) ⟨m, fun _ => 0, ρ⟩ (fun r => ∀ c : Dev nD,
      r.2.mem ((c.tc : Thread nD τ).loc main_v41) = W4 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v41 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KRun

end
-- ==== Proof.Spec.lean ====
/-
  The dense half of one graph-convolution layer, written row by row on the extended reals.

  A node's new feature vector depends only on that node's own row `x` and on its row `a` of averaged neighbour
  features: the pre-activation is  a·Wlᵀ + x·Wrᵀ + b  (entry j:  Σ_k a_k·Wl_{j,k} + Σ_k x_k·Wr_{j,k} + b_j),
  the row is divided by  max(‖row‖₂, ε)  and clamped below at zero.  The last layer then takes the row's
  log-softmax:  u_j − M − log Σ_j' exp(u_j' − M)  with  M  the row's largest entry.
  Everything here is a function of plain `Fin`-indexed rows, with no array shape and no program in sight.
-/
import Idealize.ShloMosaic.PureOps.Ideal
import Idealize.ShloMosaic.PureOps.Ideal.Laws

noncomputable section

namespace Cert.Sage

open Idealize.ShloMosaic

/-- The clamp ε of the normalisation, as the float literal both programs carry. -/
def eps : EReal := Ideal.ofBits .f32 0x2B8CBCCC#32
/-- The float zero of the rectifier. -/
def fzero : EReal := Ideal.ofBits .f32 0x00000000#32
/-- The float −∞ a row maximum starts from. -/
def fninf : EReal := Ideal.ofBits .f32 0xFF800000#32

/-- Entry `j` of  a·Wlᵀ + x·Wrᵀ + b. -/
def pre {K D : ℕ} (a x : Fin K → EReal) (Wl Wr : Fin D → Fin K → EReal) (b : Fin D → EReal) (j : Fin D) : EReal :=
  (∑ k, a k * Wl j k) + (∑ k, x k * Wr j k) + b j

/-- A row divided by the larger of its Euclidean norm and ε, then clamped below at zero. -/
def normRelu {D : ℕ} (v : Fin D → EReal) (j : Fin D) : EReal :=
  max (Ideal.div (v j) (max (Ideal.sqrt (∑ j', v j' * v j')) eps)) fzero

/-- One layer's row: the normalised, rectified pre-activation. -/
def layer {K D : ℕ} (a x : Fin K → EReal) (Wl Wr : Fin D → Fin K → EReal) (b : Fin D → EReal) : Fin D → EReal :=
  normRelu (pre a x Wl Wr b)

/-- The largest entry of a row (from −∞). -/
def rowMax {D : ℕ} (u : Fin D → EReal) : EReal := (Finset.univ : Finset (Fin D)).fold max fninf u

/-- The log-softmax of a row. -/
def logSoftmax {D : ℕ} (u : Fin D → EReal) (j : Fin D) : EReal :=
  (u j - rowMax u) - Ideal.log (∑ j', Ideal.exp (u j' - rowMax u))

/-- The float zero is the real zero, and −∞ is the bottom of the extended reals. -/
theorem fzero_eq : fzero = 0 := Ideal.ofBits_zero_f32
theorem fninf_eq : fninf = ⊥ := by simp [fninf, Ideal.ofBits, Ideal.ieee]

end Cert.Sage

end
-- ==== Proof.LibColumn.lean ====
/-
  A column of row statistics, read at an entry.

  A reduction along the rows of a matrix that keeps the reduced axis (a sum with `keepdims`) produces one value per
  row, stored as an a×1 column, and is then spread over the b columns of an a×b matrix. Reading the results at an
  entry: the a×1 column made from an a-vector has, at (i, 0), the vector's entry i; and the a×b matrix made from an
  a×1 column has, at (i, j), the column's entry (i, 0), whatever j. Both facts are arithmetic on row-major positions.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibRowOps.lean ====
/-
  Row statistics of a matrix, read at an entry, on the extended reals.

  For an R×D matrix `P`: the sum along each row (a lane reduction with `add`) at row `p` is  Σ_k P(p,k); the
  maximum along each row at row `p` is the fold of `max` over  k ↦ P(p,k)  from the starting value.  Built on these:
  the row normalisation  P(p,q) / max(√(Σ_k P(p,k)²), ε)  clamped below at zero, and the row log-softmax
  u(p,q) − M_p − log Σ_k exp(u(p,k) − M_p),  each written with a keep-dims column (R×1) that is spread back over the
  D columns, read at entry (p,q) as the corresponding row function of `Cert.Sage` applied to row `p`.
-/
import proofs.«107155_j2190433321456_1_alg».proof.Proof.Spec
import proofs.«107155_j2190433321456_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx Cert.LibColumn

variable {R D : ℕ}

/-- Inserting the column coordinate `k` into the row index `p` gives the entry `(p, k)`. -/
theorem lift_ix1 (h : (⟨2, ![R, D]⟩ : Shape).Reduces [1] ⟨1, ![R]⟩) (p : Fin R) (k : Fin D) :
    h.lift (ix1 p) k = ix2 p k := by
  funext c
  apply Fin.ext
  show h.liftVal (ix1 p) k.val c = _
  unfold Shape.Reduces.liftVal
  match c with
  | ⟨0, _⟩ => simp
  | ⟨1, _⟩ => simp

/-- A row sum at row `p` is the sum of the row's entries. -/
theorem rowSum_apply {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.add.neutral φ hφ) (p : Fin R) :
    multiReduction .add [1] ⟨1, ![R]⟩ src acc h hφ hacc (ix1 p) = ∑ k : Fin D, src (ix2 p k) := by
  rw [Ideal.multiReduction_add_single]
  exact Finset.sum_congr rfl fun k _ => congrArg src (lift_ix1 h p k)

/-- A row maximum at row `p` is the fold of `max` over the row's entries, from the starting value. -/
theorem rowMax_apply {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.maximumf.neutral φ hφ) (p : Fin R) :
    multiReduction .maximumf [1] ⟨1, ![R]⟩ src acc h hφ hacc (ix1 p)
      = (Finset.univ : Finset (Fin D)).fold max (Ideal.ofBits φ acc) (fun k => src (ix2 p k)) := by
  rw [Ideal.multiReduction_maximumf_single]
  exact congrArg (Finset.fold max _ · _) (funext fun k => congrArg src (lift_ix1 h p k))

/-- A host-side row maximum (a one-operand reduce with `max` over the columns) at row `p`: the fold of `max` over the
    row's entries from the initial value. -/
theorem hostRowMax (U : FVec Ideal ⟨2, ![R, D]⟩ .f32) {u : Shape} (init : u.Idx → Ideal .f32)
    (h' : (⟨2, ![R, D]⟩ : Shape).ReducesTo [1] ⟨1, ![R]⟩) (h : (⟨2, ![R, D]⟩ : Shape).Reduces [1] ⟨1, ![R]⟩) (hu : 0 < u.numel) (p : Fin R) :
    Host.reduce (FloatOps.maximumf (F := Ideal) (φ := .f32)) U init h' hu (ix1 p)
      = (Finset.univ : Finset (Fin D)).fold max (init (Shape.Idx.first hu)) (fun k => U (ix2 p k)) := by
  rw [Host.reduce_eq_fold_single _ _ _ _ h]
  exact congrArg (Finset.fold max _ · _) (funext fun k => congrArg U (lift_ix1 h p k))

/-- The pointwise square root, exponential and logarithm read at an entry. -/
theorem sqrt_apply {s : Shape} {φ : FTy} (x : FVec Ideal s φ) (i : s.Idx) : sqrt x i = Ideal.sqrt (x i) := rfl
theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

/-- The block form of the row normalisation: every row of `P` divided by the larger of its Euclidean norm (the
    root of the row sum of squares, kept as an R×1 column and spread back over the columns) and ε, clamped below at 0. -/
def normReluBlk (P : FVec Ideal ⟨2, ![R, D]⟩ .f32)
    (hr : (⟨2, ![R, D]⟩ : Shape).Reduces [1] ⟨1, ![R]⟩) (hφ : FKind.Formats .f32) (hacc : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, D]⟩) : FVec Ideal ⟨2, ![R, D]⟩ .f32 :=
  maximumf (divf P (broadcastTo ⟨2, ![R, D]⟩ (maximumf (sqrt (shapeCast ⟨2, ![R, 1]⟩
      (multiReduction .add [1] ⟨1, ![R]⟩ (mulf P P) 0x00000000#32 hr hφ hacc) hc))
      (broadcast ⟨2, ![R, 1]⟩ (Scalar.ofBits .f32 0x2B8CBCCC#32))) hb))
    (broadcast ⟨2, ![R, D]⟩ (Scalar.ofBits .f32 0x00000000#32))

/-- At entry (p, q) it is the row function applied to row `p`. -/
theorem normReluBlk_apply (P : FVec Ideal ⟨2, ![R, D]⟩ .f32)
    (hr : (⟨2, ![R, D]⟩ : Shape).Reduces [1] ⟨1, ![R]⟩) (hφ : FKind.Formats .f32) (hacc : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, D]⟩) (p : Fin R) (q : Fin D) :
    normReluBlk P hr hφ hacc hc hb (ix2 p q) = Cert.Sage.normRelu (fun j => P (ix2 p j)) q := by
  unfold normReluBlk Cert.Sage.normRelu
  simp only [maximumf_apply, divf_apply, broadcast_apply, broadcastTo_a1_ab_apply, sqrt_apply, shapeCast_a_a1_apply]
  rw [rowSum_apply (mulf P P) _ hr hφ hacc p]
  rfl

/-- The block form of the row log-softmax: the row maximum (from −∞) is subtracted, then the logarithm of the row sum
    of exponentials; both row statistics are kept as R×1 columns and spread back over the columns. -/
def logSoftmaxBlk (U : FVec Ideal ⟨2, ![R, D]⟩ .f32)
    (hr : (⟨2, ![R, D]⟩ : Shape).Reduces [1] ⟨1, ![R]⟩) (hφ : FKind.Formats .f32) (hacc : (0x00000000#32 : BitVec 32) = FKind.add.neutral .f32 hφ)
    (hφm : FKind.Formats .f32) (haccm : (0xFF800000#32 : BitVec 32) = FKind.maximumf.neutral .f32 hφm)
    (hc : (⟨1, ![R]⟩ : Shape).ShapeCasts ⟨2, ![R, 1]⟩) (hb : (⟨2, ![R, 1]⟩ : Shape).Broadcasts ⟨2, ![R, D]⟩) : FVec Ideal ⟨2, ![R, D]⟩ .f32 :=
  subf (subf U (broadcastTo ⟨2, ![R, D]⟩ (shapeCast ⟨2, ![R, 1]⟩ (multiReduction .maximumf [1] ⟨1, ![R]⟩ U 0xFF800000#32 hr hφm haccm) hc) hb))
    (broadcastTo ⟨2, ![R, D]⟩ (log (shapeCast ⟨2, ![R, 1]⟩ (multiReduction .add [1] ⟨1, ![R]⟩
      (exp (subf U (broadcastTo ⟨2, ![R, D]⟩ (shapeCast ⟨2, ![R, 1]⟩ (multiReduction .maximumf [1] ⟨1, ![R]⟩ U 0xFF800000#32 hr hφm haccm) hc) hb)))
      0x00000000#32 hr hφ hacc) hc)) hb)

/-- At entry (p, q) it is the row log-softmax of row `p`. -/
theorem logSoftmaxBlk_apply (U : FVec Ideal ⟨2, ![R, D]⟩ .f32)
    (hr : (⟨2, ![R, D]⟩ : Shape).Reduces [1] ⟨1, ![R]⟩) (hφ : FKind.Formats .f32) (hacc : (0x00000000#32 : BitVec 32) = FKind.add.neutral .f32 hφ)
    (hφm : FKind.Formats .f32) (haccm : (0xFF800000#32 : BitVec 32) = FKind.maximumf.neutral .f32 hφm)
    (hc : (⟨1, ![R]⟩ : Shape).ShapeCasts ⟨2, ![R, 1]⟩) (hb : (⟨2, ![R, 1]⟩ : Shape).Broadcasts ⟨2, ![R, D]⟩) (p : Fin R) (q : Fin D) :
    logSoftmaxBlk U hr hφ hacc hφm haccm hc hb (ix2 p q) = Cert.Sage.logSoftmax (fun j => U (ix2 p j)) q := by
  unfold logSoftmaxBlk Cert.Sage.logSoftmax Cert.Sage.rowMax
  simp only [subf_apply, broadcastTo_a1_ab_apply, log_apply, shapeCast_a_a1_apply]
  rw [rowSum_apply _ _ hr hφ hacc p, rowMax_apply U _ hr hφm haccm p]
  refine congrArg (fun s => _ - Ideal.log s) (Finset.sum_congr rfl fun k _ => ?_)
  rw [exp_apply, subf_apply, broadcastTo_a1_ab_apply, shapeCast_a_a1_apply, rowMax_apply U _ hr hφm haccm p]
  rfl

end Cert.LibRowOps

end
-- ==== Proof.KBody0.lean ====
/-
  What layer 1's kernel body writes for one block of 2000 nodes, read at an entry.

  The body takes the block's rows of node features `x` and of averaged neighbour features `a` (2000 × 128 each), the
  two 128 × 128 weight matrices and the 1 × 128 bias, and stores a 2000 × 128 block.  Its two matrix products contract
  the LAST axis of both operands (a row of the block against a row of the weights), so entry (p, q) of a product is
  Σ_k row_p(k) · W(q, k); the narrowing of the operands to a shorter float format is the identity on the extended reals.
  Entry (p, q) of the stored block is therefore the rectified, normalised pre-activation of that node, a function of rows p of `x` and `a` alone.
-/
import proofs.«107155_j2190433321456_1_alg».proof.Proof.Gen.KernelIdeal.Skeleton
import proofs.«107155_j2190433321456_1_alg».proof.Proof.Spec
import proofs.«107155_j2190433321456_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

namespace Cert.KBody0

open Idealize.ShloMosaic Idealize.ShloMosaic.ValueIdx Cert.KernelIdeal Cert.KernelIdeal.Gen Cert.LibRowOps

/-- The body's dimension numbers: both operands contract their axis 1; axis 0 of each survives. -/
abbrev DD : DotDims S2000x128 S128x128 S2000x128 := dot_S2000x128_S128x128_S2000x128_1_1_0_0_n_n

theorem lhs_0 (i : S2000x128.Idx) (q : DD.contr.Idx) : (DD.lhsIdx i q 0).val = (i 0).val := by
  unfold DotDims.lhsIdx
  rw [dif_neg (show ¬(0 : Fin S2000x128.rank) ∈ DD.lhsBatch by decide), dif_pos (show (0 : Fin S2000x128.rank) ∈ DD.lhsNonContracting by decide)]
  rfl
theorem lhs_1 (i : S2000x128.Idx) (q : DD.contr.Idx) : (DD.lhsIdx i q 1).val = (q ⟨0, by decide⟩).val :=
  DD.lhsIdx_val_of_single rfl i q
theorem rhs_0 (i : S2000x128.Idx) (q : DD.contr.Idx) : (DD.rhsIdx i q 0).val = (i 1).val := by
  unfold DotDims.rhsIdx
  rw [dif_neg (show ¬(0 : Fin S128x128.rank) ∈ DD.rhsBatch by decide), dif_pos (show (0 : Fin S128x128.rank) ∈ DD.rhsNonContracting by decide)]
  rfl
theorem rhs_1 (i : S2000x128.Idx) (q : DD.contr.Idx) : (DD.rhsIdx i q 1).val = (q ⟨0, by decide⟩).val :=
  DD.rhsIdx_val_of_single rfl i q

/-- A product into the zero accumulator, at entry (p, q): row p of the left operand against row q of the right. -/
theorem matmulT_apply (l : FVec Ideal S2000x128 .bf16) (r : FVec Ideal S128x128 .bf16) (p : Fin 2000) (q : Fin 128) :
    matmul DD none l r (constant (F := Ideal) S2000x128 .f32 0x00000000#32) (ix2 p q) = ∑ k : Fin 128, l (ix2 p k) * r (ix2 q k) := by
  simp only [matmul]
  rw [Ideal.matmul_constant_zero_apply, ← Equiv.sum_comp (contrEquiv1 DD 128 rfl rfl).symm]
  refine Finset.sum_congr rfl fun k _ => ?_
  have hk := contrEquiv1_symm_val DD 128 rfl rfl k
  have el : DD.lhsIdx (ix2 p q) ((contrEquiv1 DD 128 rfl rfl).symm k) = ix2 p k := funext fun a => Fin.ext (by
    match a with
    | ⟨0, _⟩ => exact lhs_0 _ _
    | ⟨1, _⟩ => exact (lhs_1 _ _).trans hk)
  have er : DD.rhsIdx (ix2 p q) ((contrEquiv1 DD 128 rfl rfl).symm k) = ix2 q k := funext fun a => Fin.ext (by
    match a with
    | ⟨0, _⟩ => exact rhs_0 _ _
    | ⟨1, _⟩ => exact (rhs_1 _ _).trans hk)
  rw [el, er]

variable (x a : Vec Ideal S2000x128 .f32) (wl wr : Vec Ideal S128x128 .f32) (b : Vec Ideal S1x128 .f32)

/-- The pre-activation block  a·Wlᵀ + x·Wrᵀ + b  as the body spells it. -/
def preBlk : FVec Ideal S2000x128 .f32 :=
  addf (addf
      (matmul DD none (truncf .bf16 (shapeCast S2000x128 a shapeCasts_S2000x128_S2000x128) bitsLt_bf16_f32) (truncf .bf16 wl bitsLt_bf16_f32)
        (constant S2000x128 .f32 0x00000000#32))
      (matmul DD none (truncf .bf16 x bitsLt_bf16_f32) (truncf .bf16 wr bitsLt_bf16_f32)
        (constant S2000x128 .f32 0x00000000#32)))
    (broadcastTo S2000x128 (shapeCast S1x128 b shapeCasts_S1x128_S1x128) broadcasts_S1x128_S2000x128)

/-- Its entry (p, q) is entry q of the pre-activation of rows p. -/
theorem preBlk_apply (p : Fin 2000) (q : Fin 128) :
    preBlk x a wl wr b (ix2 p q)
      = Cert.Sage.pre (fun k => a (ix2 p k)) (fun k => x (ix2 p k)) (fun j k => wl (ix2 j k)) (fun j k => wr (ix2 j k)) (fun j => b (ix2 (0 : Fin 1) j)) q := by
  unfold preBlk Cert.Sage.pre
  simp only [addf_apply, shapeCast_self]
  rw [matmulT_apply, matmulT_apply, broadcastTo_1b_ab_apply]
  rfl

/-- The stored payload is the row pipeline applied to the pre-activation block. -/
theorem pay_eq : k0_pay1 x a wl wr b = normReluBlk (preBlk x a wl wr b) reduces_S2000x128_S2000 (.inl rfl) rfl shapeCasts_S2000_S2000x1 broadcasts_S2000x1_S2000x128 := rfl

/-- Entry (p, q) of the stored block, as a function of rows p of the node features and of the neighbour averages. -/
theorem pay_apply (p : Fin 2000) (q : Fin 128) :
    k0_pay1 x a wl wr b (ix2 p q) = Cert.Sage.layer (fun k => a (ix2 p k)) (fun k => x (ix2 p k)) (fun j k => wl (ix2 j k)) (fun j k => wr (ix2 j k)) (fun j => b (ix2 (0 : Fin 1) j)) q := by
  rw [pay_eq]
  refine (normReluBlk_apply _ _ _ _ _ _ p q).trans ?_
  unfold Cert.Sage.layer
  exact congrArg (fun v => Cert.Sage.normRelu v q) (funext fun j => preBlk_apply x a wl wr b p j)

end Cert.KBody0

end
-- ==== Proof.KArr0.lean ====
/-
  Layer 1's output array after its region has run: one function of the arrays the region found.

  The region walks the 100000 nodes in 50 blocks of 2000 rows; at point t it stages rows 2000·t … 2000·t+1999 of the
  node features and of the neighbour averages, the whole weight matrices and the bias, and writes back rows
  2000·t … 2000·t+1999 of the result.  Row r of the result therefore lies in exactly one block, the one of point
  r / 2000, and by the body's reading (entry (p, q) of a stored block depends on rows p of the two staged blocks only)
  it is the layer's row function of rows r of the two input arrays.  So the whole output array is `layerArr` below.
-/
import proofs.«107155_j2190433321456_1_alg».proof.Proof.Gen.KernelIdeal.Frame
import proofs.«107155_j2190433321456_1_alg».proof.Proof.KBody0
import Idealize.ShloMosaic.Lib.Pipeline.Value

set_option maxRecDepth 16384

noncomputable section

namespace Cert.KArr0

open Idealize.ShloMosaic Idealize.ShloMosaic.ValueIdx Idealize.ShloMosaic.TcCoe Idealize.SL.Sem
open Cert.KernelIdeal Cert.KernelIdeal.Gen
open Idealize.ShloMosaic.Pipeline (Dat)

/-- The row and the column of an entry of the output array, as plain numbers below the extents. -/
abbrev rowOf (i : S100000x128.Idx) : Fin 100000 := ⟨(i 0).val, (i 0).isLt⟩
abbrev colOf (i : S100000x128.Idx) : Fin 128 := ⟨(i 1).val, (i 1).isLt⟩

/-- The whole output array: at (r, q), the layer's row function of rows r of the node features `X` and of the
    neighbour averages `A`. -/
def layerArr (X A : S100000x128.Idx → Elt Ideal .f32) (WL WR : S128x128.Idx → Elt Ideal .f32) (B : S1x128.Idx → Elt Ideal .f32) :
    S100000x128.Idx → Elt Ideal .f32 :=
  fun i => Cert.Sage.layer (fun k => A (ix2 (rowOf i) k)) (fun k => X (ix2 (rowOf i) k)) (fun j k => WL (ix2 j k)) (fun j k => WR (ix2 j k)) (fun j => B (ix2 (0 : Fin 1) j)) (colOf i)

/-- One entry of one stored block, when the staged blocks are known to hold rows r of the arrays. -/
theorem pay_at (x a : Vec Ideal S2000x128 .f32) (wl wr : Vec Ideal S128x128 .f32) (b : Vec Ideal S1x128 .f32)
    (X A : S100000x128.Idx → Elt Ideal .f32) (WL WR : S128x128.Idx → Elt Ideal .f32) (B : S1x128.Idx → Elt Ideal .f32)
    (r : Fin 100000) (p : Fin 2000) (q : Fin 128)
    (hx : ∀ k : Fin 128, x (ix2 p k) = X (ix2 r k)) (ha : ∀ k : Fin 128, a (ix2 p k) = A (ix2 r k))
    (hwl : wl = WL) (hwr : wr = WR) (hb : b = B) :
    k0_pay1 x a wl wr b (ix2 p q) = Cert.Sage.layer (fun k => A (ix2 r k)) (fun k => X (ix2 r k)) (fun j k => WL (ix2 j k)) (fun j k => WR (ix2 j k)) (fun j => B (ix2 (0 : Fin 1) j)) q := by
  rw [Cert.KBody0.pay_apply]
  simp only [hx, ha, hwl, hwr, hb]

theorem hz : (![0, 0] : Fin 2 → Nat) = fun _ => 0 := funext fun a => by fin_cases a <;> rfl

/-- The printed index maps over the grid: the two row-blocked inputs move with the output, the weights and the bias
    stay at block (0, 0), and the output's block row is the point's number. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- What point `t` writes back is block `t` of `layerArr` of the arrays as the region finds them. -/
theorem flushed_eq (c : Dev nD) (t : Fin cfg0.N) :
    (dat0 V c).flushed 5 t = ((cfg0.win 5).blk t).view.read (Elt Ideal)
      (layerArr (V c main_arg0) (V c main_v24) (V c main_arg2) (V c main_arg4) (V c main_v25)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, e50, e51⟩ := idx_facts t
  funext j
  obtain ⟨p, q, rfl⟩ : ∃ (p : Fin 2000) (q : Fin 128), j = ix2 p q := ⟨j 0, j 1, eq_ix2 j⟩
  have ht : t.val < 50 := t.isLt
  show k0_pay1 (iblk0 V c 0 t) (iblk0 V c 1 t) (iblk0 V c 2 t) (iblk0 V c 4 t) (iblk0 V c 3 t) (ix2 p q)
    = layerArr (V c main_arg0) (V c main_v24) (V c main_arg2) (V c main_arg4) (V c main_v25) (((cfg0.win 5).blk t).view.emb (ix2 p q))
  refine (pay_at _ _ _ _ _ (V c main_arg0) (V c main_v24) (V c main_arg2) (V c main_arg4) (V c main_v25)
    ⟨2000 * t.val + p.val, by have := p.isLt; omega⟩ p q ?_ ?_ ?_ ?_ ?_).trans ?_
  · intro k
    show V c main_arg0 (((cfg0.win 0).blk t).view.emb (ix2 p k)) = _
    refine congrArg _ (funext fun a => Fin.ext ?_)
    match a with
    | ⟨0, _⟩ => show win0_0.index t (0 : Fin 2) * 2000 + 1 * p.val = 2000 * t.val + p.val; omega
    | ⟨1, _⟩ => show win0_0.index t (1 : Fin 2) * 128 + 1 * k.val = k.val; omega
  · intro k
    show V c main_v24 (((cfg0.win 1).blk t).view.emb (ix2 p k)) = _
    refine congrArg _ (funext fun a => Fin.ext ?_)
    match a with
    | ⟨0, _⟩ => show win0_1.index t (0 : Fin 2) * 2000 + 1 * p.val = 2000 * t.val + p.val; omega
    | ⟨1, _⟩ => show win0_1.index t (1 : Fin 2) * 128 + 1 * k.val = k.val; omega
  · funext y
    show V c main_arg2 (((cfg0.win 2).blk t).view.emb y) = V c main_arg2 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_arg4 (((cfg0.win 4).blk t).view.emb y) = V c main_arg4 y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  · funext y
    show V c main_v25 (((cfg0.win 3).blk t).view.emb y) = V c main_v25 y
    refine congrArg _ (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega
  · have hr : rowOf (((cfg0.win 5).blk t).view.emb (ix2 p q)) = ⟨2000 * t.val + p.val, by have := p.isLt; omega⟩ :=
      Fin.ext (show win0_5.index t (0 : Fin 2) * 2000 + 1 * p.val = 2000 * t.val + p.val by omega)
    have hc : colOf (((cfg0.win 5).blk t).view.emb (ix2 p q)) = q :=
      Fin.ext (show win0_5.index t (1 : Fin 2) * 128 + 1 * q.val = q.val by omega)
    unfold layerArr
    rw [hr, hc]

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v26).slice (win0_5.rect t)).set ↔ _
  rw [View.set_slice_whole, Rect.mem_set_unit]
  exact Iff.rfl

/-- Every entry lies in the block of the point numbered by its row divided by 2000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  refine ⟨⟨(i 0).val / 2000, show (i 0).val / 2000 < 50 by omega⟩, flush0_5 _, ?_⟩
  rw [mem_blk]
  obtain ⟨-, -, -, -, -, -, -, -, -, -, e50, e51⟩ := idx_facts ⟨(i 0).val / 2000, show (i 0).val / 2000 < 50 by omega⟩
  intro a
  match a with
  | ⟨0, _⟩ =>
    show win0_5.index _ (0 : Fin 2) * 2000 ≤ (i 0).val ∧ (i 0).val < win0_5.index _ (0 : Fin 2) * 2000 + 2000
    rw [e50]; show (i 0).val / 2000 * 2000 ≤ (i 0).val ∧ (i 0).val < (i 0).val / 2000 * 2000 + 2000; omega
  | ⟨1, _⟩ =>
    show win0_5.index _ (1 : Fin 2) * 128 ≤ (i 1).val ∧ (i 1).val < win0_5.index _ (1 : Fin 2) * 128 + 128
    rw [e51]; omega

/-- The output array after the region: `layerArr` of the arrays the region found. -/
theorem final (c : Dev nD) :
    (dat0 V c).arrAt 5 cfg0.N = layerArr (V c main_arg0) (V c main_v24) (V c main_arg2) (V c main_arg4) (V c main_v25) :=
  (dat0 V c).arrAt_eq_of_cover 5 _ (fun t _ => flushed_eq V c t) cover

end Cert.KArr0

end
-- ==== Proof.KBody1.lean ====
/-
  What layer 2's kernel body writes for one block of 2000 nodes, read at an entry.

  The body takes the block's rows of node features `x` and of averaged neighbour features `a` (2000 × 128 each), the
  two 40 × 128 weight matrices and the 1 × 40 bias, and stores a 2000 × 40 block.  Its two matrix products contract
  the LAST axis of both operands (a row of the block against a row of the weights), so entry (p, q) of a product is
  Σ_k row_p(k) · W(q, k); the narrowing of the operands to a shorter float format is the identity on the extended reals.
  Entry (p, q) of the stored block is therefore the log-softmax of the rectified, normalised pre-activation of that node, a function of rows p of `x` and `a` alone.
-/
import proofs.«107155_j2190433321456_1_alg».proof.Proof.Gen.KernelIdeal.Skeleton
import proofs.«107155_j2190433321456_1_alg».proof.Proof.Spec
import proofs.«107155_j2190433321456_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

namespace Cert.KBody1

open Idealize.ShloMosaic Idealize.ShloMosaic.ValueIdx Cert.KernelIdeal Cert.KernelIdeal.Gen Cert.LibRowOps

/-- The body's dimension numbers: both operands contract their axis 1; axis 0 of each survives. -/
abbrev DD : DotDims S2000x128 S40x128 S2000x40 := dot_S2000x128_S40x128_S2000x40_1_1_0_0_n_n

theorem lhs_0 (i : S2000x40.Idx) (q : DD.contr.Idx) : (DD.lhsIdx i q 0).val = (i 0).val := by
  unfold DotDims.lhsIdx
  rw [dif_neg (show ¬(0 : Fin S2000x128.rank) ∈ DD.lhsBatch by decide), dif_pos (show (0 : Fin S2000x128.rank) ∈ DD.lhsNonContracting by decide)]
  rfl
theorem lhs_1 (i : S2000x40.Idx) (q : DD.contr.Idx) : (DD.lhsIdx i q 1).val = (q ⟨0, by decide⟩).val :=
  DD.lhsIdx_val_of_single rfl i q
theorem rhs_0 (i : S2000x40.Idx) (q : DD.contr.Idx) : (DD.rhsIdx i q 0).val = (i 1).val := by
  unfold DotDims.rhsIdx
  rw [dif_neg (show ¬(0 : Fin S40x128.rank) ∈ DD.rhsBatch by decide), dif_pos (show (0 : Fin S40x128.rank) ∈ DD.rhsNonContracting by decide)]
  rfl
theorem rhs_1 (i : S2000x40.Idx) (q : DD.contr.Idx) : (DD.rhsIdx i q 1).val = (q ⟨0, by decide⟩).val :=
  DD.rhsIdx_val_of_single rfl i q

/-- A product into the zero accumulator, at entry (p, q): row p of the left operand against row q of the right. -/
theorem matmulT_apply (l : FVec Ideal S2000x128 .bf16) (r : FVec Ideal S40x128 .bf16) (p : Fin 2000) (q : Fin 40) :
    matmul DD none l r (constant (F := Ideal) S2000x40 .f32 0x00000000#32) (ix2 p q) = ∑ k : Fin 128, l (ix2 p k) * r (ix2 q k) := by
  simp only [matmul]
  rw [Ideal.matmul_constant_zero_apply, ← Equiv.sum_comp (contrEquiv1 DD 128 rfl rfl).symm]
  refine Finset.sum_congr rfl fun k _ => ?_
  have hk := contrEquiv1_symm_val DD 128 rfl rfl k
  have el : DD.lhsIdx (ix2 p q) ((contrEquiv1 DD 128 rfl rfl).symm k) = ix2 p k := funext fun a => Fin.ext (by
    match a with
    | ⟨0, _⟩ => exact lhs_0 _ _
    | ⟨1, _⟩ => exact (lhs_1 _ _).trans hk)
  have er : DD.rhsIdx (ix2 p q) ((contrEquiv1 DD 128 rfl rfl).symm k) = ix2 q k := funext fun a => Fin.ext (by
    match a with
    | ⟨0, _⟩ => exact rhs_0 _ _
    | ⟨1, _⟩ => exact (rhs_1 _ _).trans hk)
  rw [el, er]

variable (x a : Vec Ideal S2000x128 .f32) (wl wr : Vec Ideal S40x128 .f32) (b : Vec Ideal S1x40 .f32)

/-- The pre-activation block  a·Wlᵀ + x·Wrᵀ + b  as the body spells it. -/
def preBlk : FVec Ideal S2000x40 .f32 :=
  addf (addf
      (matmul DD none (truncf .bf16 (shapeCast S2000x128 a shapeCasts_S2000x128_S2000x128) bitsLt_bf16_f32) (truncf .bf16 wl bitsLt_bf16_f32)
        (constant S2000x40 .f32 0x00000000#32))
      (matmul DD none (truncf .bf16 (shapeCast S2000x128 x shapeCasts_S2000x128_S2000x128) bitsLt_bf16_f32) (truncf .bf16 wr bitsLt_bf16_f32)
        (constant S2000x40 .f32 0x00000000#32)))
    (broadcastTo S2000x40 (shapeCast S1x40 b shapeCasts_S1x40_S1x40) broadcasts_S1x40_S2000x40)

/-- Its entry (p, q) is entry q of the pre-activation of rows p. -/
theorem preBlk_apply (p : Fin 2000) (q : Fin 40) :
    preBlk x a wl wr b (ix2 p q)
      = Cert.Sage.pre (fun k => a (ix2 p k)) (fun k => x (ix2 p k)) (fun j k => wl (ix2 j k)) (fun j k => wr (ix2 j k)) (fun j => b (ix2 (0 : Fin 1) j)) q := by
  unfold preBlk Cert.Sage.pre
  simp only [addf_apply, shapeCast_self]
  rw [matmulT_apply, matmulT_apply, broadcastTo_1b_ab_apply]
  rfl

/-- The stored payload is the row pipeline applied to the pre-activation block. -/
theorem pay_eq : k1_pay1 x a wl wr b = logSoftmaxBlk (normReluBlk (preBlk x a wl wr b) reduces_S2000x40_S2000 (.inl rfl) rfl shapeCasts_S2000_S2000x1 broadcasts_S2000x1_S2000x40)
      reduces_S2000x40_S2000 (.inl rfl) rfl (.inl rfl) rfl shapeCasts_S2000_S2000x1 broadcasts_S2000x1_S2000x40 := rfl

/-- Entry (p, q) of the stored block, as a function of rows p of the node features and of the neighbour averages. -/
theorem pay_apply (p : Fin 2000) (q : Fin 40) :
    k1_pay1 x a wl wr b (ix2 p q) = Cert.Sage.logSoftmax (Cert.Sage.layer (fun k => a (ix2 p k)) (fun k => x (ix2 p k)) (fun j k => wl (ix2 j k)) (fun j k => wr (ix2 j k)) (fun j => b (ix2 (0 : Fin 1) j))) q := by
  rw [pay_eq]
  refine (logSoftmaxBlk_apply _ _ _ _ _ _ _ _ p q).trans ?_
  unfold Cert.Sage.layer
  refine congrArg (fun v => Cert.Sage.logSoftmax v q) (funext fun j => ?_)
  refine (normReluBlk_apply _ _ _ _ _ _ p j).trans ?_
  exact congrArg (fun v => Cert.Sage.normRelu v j) (funext fun j' => preBlk_apply x a wl wr b p j')

end Cert.KBody1

end
-- ==== Proof.KArr1.lean ====
/-
  Layer 2's output array after its region has run: one function of the arrays the region found.

  The region walks the 100000 nodes in 50 blocks of 2000 rows; at point t it stages rows 2000·t … 2000·t+1999 of the
  node features and of the neighbour averages, the whole weight matrices and the bias, and writes back rows
  2000·t … 2000·t+1999 of the result.  Row r of the result therefore lies in exactly one block, the one of point
  r / 2000, and by the body's reading (entry (p, q) of a stored block depends on rows p of the two staged blocks only)
  it is the layer's row function of rows r of the two input arrays.  So the whole output array is `layerArr` below.
-/
import proofs.«107155_j2190433321456_1_alg».proof.Proof.Gen.KernelIdeal.Frame
import proofs.«107155_j2190433321456_1_alg».proof.Proof.KBody1
import Idealize.ShloMosaic.Lib.Pipeline.Value

set_option maxRecDepth 16384

noncomputable section

namespace Cert.KArr1

open Idealize.ShloMosaic Idealize.ShloMosaic.ValueIdx Idealize.ShloMosaic.TcCoe Idealize.SL.Sem
open Cert.KernelIdeal Cert.KernelIdeal.Gen
open Idealize.ShloMosaic.Pipeline (Dat)

/-- The row and the column of an entry of the output array, as plain numbers below the extents. -/
abbrev rowOf (i : S100000x40.Idx) : Fin 100000 := ⟨(i 0).val, (i 0).isLt⟩
abbrev colOf (i : S100000x40.Idx) : Fin 40 := ⟨(i 1).val, (i 1).isLt⟩

/-- The whole output array: at (r, q), the layer's row function of rows r of the node features `X` and of the
    neighbour averages `A`. -/
def layerArr (X A : S100000x128.Idx → Elt Ideal .f32) (WL WR : S40x128.Idx → Elt Ideal .f32) (B : S1x40.Idx → Elt Ideal .f32) :
    S100000x40.Idx → Elt Ideal .f32 :=
  fun i => Cert.Sage.logSoftmax (Cert.Sage.layer (fun k => A (ix2 (rowOf i) k)) (fun k => X (ix2 (rowOf i) k)) (fun j k => WL (ix2 j k)) (fun j k => WR (ix2 j k)) (fun j => B (ix2 (0 : Fin 1) j))) (colOf i)

/-- One entry of one stored block, when the staged blocks are known to hold rows r of the arrays. -/
theorem pay_at (x a : Vec Ideal S2000x128 .f32) (wl wr : Vec Ideal S40x128 .f32) (b : Vec Ideal S1x40 .f32)
    (X A : S100000x128.Idx → Elt Ideal .f32) (WL WR : S40x128.Idx → Elt Ideal .f32) (B : S1x40.Idx → Elt Ideal .f32)
    (r : Fin 100000) (p : Fin 2000) (q : Fin 40)
    (hx : ∀ k : Fin 128, x (ix2 p k) = X (ix2 r k)) (ha : ∀ k : Fin 128, a (ix2 p k) = A (ix2 r k))
    (hwl : wl = WL) (hwr : wr = WR) (hb : b = B) :
    k1_pay1 x a wl wr b (ix2 p q) = Cert.Sage.logSoftmax (Cert.Sage.layer (fun k => A (ix2 r k)) (fun k => X (ix2 r k)) (fun j k => WL (ix2 j k)) (fun j k => WR (ix2 j k)) (fun j => B (ix2 (0 : Fin 1) j))) q := by
  rw [Cert.KBody1.pay_apply]
  simp only [hx, ha, hwl, hwr, hb]

theorem hz : (![0, 0] : Fin 2 → Nat) = fun _ => 0 := funext fun a => by fin_cases a <;> rfl

/-- The printed index maps over the grid: the two row-blocked inputs move with the output, the weights and the bias
    stay at block (0, 0), and the output's block row is the point's number. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- What point `t` writes back is block `t` of `layerArr` of the arrays as the region finds them. -/
theorem flushed_eq (c : Dev nD) (t : Fin cfg1.N) :
    (dat1 V c).flushed 5 t = ((cfg1.win 5).blk t).view.read (Elt Ideal)
      (layerArr (V c main_v26) (V c main_v39) (V c main_arg5) (V c main_arg7) (V c main_v40)) := by
  show (cfg1.win 5).cut (grid1.coords t) ((dat1 V c).after 5 t) = _
  rw [after1_5]
  unfold out1_5
  rw [View.canon_unit_zero hz]
  simp only [View.ld_unit_zero (S := S2000x128) hz, View.ld_unit_zero (S := S40x128) hz, View.ld_unit_zero (S := S1x40) hz]
  obtain ⟨e00, e01, e10, e11, e20, e21, e30, e31, e40, e41, e50, e51⟩ := idx_facts t
  funext j
  obtain ⟨p, q, rfl⟩ : ∃ (p : Fin 2000) (q : Fin 40), j = ix2 p q := ⟨j 0, j 1, eq_ix2 j⟩
  have ht : t.val < 50 := t.isLt
  show k1_pay1 (iblk1 V c 0 t) (iblk1 V c 1 t) (iblk1 V c 2 t) (iblk1 V c 4 t) (iblk1 V c 3 t) (ix2 p q)
    = layerArr (V c main_v26) (V c main_v39) (V c main_arg5) (V c main_arg7) (V c main_v40) (((cfg1.win 5).blk t).view.emb (ix2 p q))
  refine (pay_at _ _ _ _ _ (V c main_v26) (V c main_v39) (V c main_arg5) (V c main_arg7) (V c main_v40)
    ⟨2000 * t.val + p.val, by have := p.isLt; omega⟩ p q ?_ ?_ ?_ ?_ ?_).trans ?_
  · intro k
    show V c main_v26 (((cfg1.win 0).blk t).view.emb (ix2 p k)) = _
    refine congrArg _ (funext fun a => Fin.ext ?_)
    match a with
    | ⟨0, _⟩ => show win1_0.index t (0 : Fin 2) * 2000 + 1 * p.val = 2000 * t.val + p.val; omega
    | ⟨1, _⟩ => show win1_0.index t (1 : Fin 2) * 128 + 1 * k.val = k.val; omega
  · intro k
    show V c main_v39 (((cfg1.win 1).blk t).view.emb (ix2 p k)) = _
    refine congrArg _ (funext fun a => Fin.ext ?_)
    match a with
    | ⟨0, _⟩ => show win1_1.index t (0 : Fin 2) * 2000 + 1 * p.val = 2000 * t.val + p.val; omega
    | ⟨1, _⟩ => show win1_1.index t (1 : Fin 2) * 128 + 1 * k.val = k.val; omega
  · funext y
    show V c main_arg5 (((cfg1.win 2).blk t).view.emb y) = V c main_arg5 y
    refine congrArg _ (funext fun a => Fin.ext ?_)
    match a with
    | ⟨0, _⟩ => show win1_2.index t (0 : Fin 2) * 40 + 1 * (y 0).val = (y 0).val; omega
    | ⟨1, _⟩ => show win1_2.index t (1 : Fin 2) * 128 + 1 * (y 1).val = (y 1).val; omega
  · funext y
    show V c main_arg7 (((cfg1.win 4).blk t).view.emb y) = V c main_arg7 y
    refine congrArg _ (funext fun a => Fin.ext ?_)
    match a with
    | ⟨0, _⟩ => show win1_4.index t (0 : Fin 2) * 40 + 1 * (y 0).val = (y 0).val; omega
    | ⟨1, _⟩ => show win1_4.index t (1 : Fin 2) * 128 + 1 * (y 1).val = (y 1).val; omega
  · funext y
    show V c main_v40 (((cfg1.win 3).blk t).view.emb y) = V c main_v40 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 40 + 1 * (y 1).val = (y 1).val; omega
  · have hr : rowOf (((cfg1.win 5).blk t).view.emb (ix2 p q)) = ⟨2000 * t.val + p.val, by have := p.isLt; omega⟩ :=
      Fin.ext (show win1_5.index t (0 : Fin 2) * 2000 + 1 * p.val = 2000 * t.val + p.val by omega)
    have hc : colOf (((cfg1.win 5).blk t).view.emb (ix2 p q)) = q :=
      Fin.ext (show win1_5.index t (1 : Fin 2) * 40 + 1 * q.val = q.val by omega)
    unfold layerArr
    rw [hr, hc]

/-- An index of the output array is in point `t`'s block iff each coordinate is in the block's range on its axis. -/
theorem mem_blk (t : Fin cfg1.N) (i : S100000x40.Idx) :
    i ∈ ((cfg1.win 5).blk t).view.set ↔ ∀ a : Fin 2, win1_5.index t a * S2000x40.size a ≤ (i a).val ∧ (i a).val < win1_5.index t a * S2000x40.size a + S2000x40.size a := by
  show i ∈ ((View.whole main_v41).slice (win1_5.rect t)).set ↔ _
  rw [View.set_slice_whole, Rect.mem_set_unit]
  exact Iff.rfl

/-- Every entry lies in the block of the point numbered by its row divided by 2000. -/
theorem cover (i : S100000x40.Idx) : ∃ t : Fin cfg1.N, (cfg1.win 5).flush t = true ∧ i ∈ ((cfg1.win 5).blk t).view.set := by
  have hi0 : (i 0).val < 100000 := (i 0).isLt
  have hi1 : (i 1).val < 40 := (i 1).isLt
  refine ⟨⟨(i 0).val / 2000, show (i 0).val / 2000 < 50 by omega⟩, flush1_5 _, ?_⟩
  rw [mem_blk]
  obtain ⟨-, -, -, -, -, -, -, -, -, -, e50, e51⟩ := idx_facts ⟨(i 0).val / 2000, show (i 0).val / 2000 < 50 by omega⟩
  intro a
  match a with
  | ⟨0, _⟩ =>
    show win1_5.index _ (0 : Fin 2) * 2000 ≤ (i 0).val ∧ (i 0).val < win1_5.index _ (0 : Fin 2) * 2000 + 2000
    rw [e50]; show (i 0).val / 2000 * 2000 ≤ (i 0).val ∧ (i 0).val < (i 0).val / 2000 * 2000 + 2000; omega
  | ⟨1, _⟩ =>
    show win1_5.index _ (1 : Fin 2) * 40 ≤ (i 1).val ∧ (i 1).val < win1_5.index _ (1 : Fin 2) * 40 + 40
    rw [e51]; omega

/-- The output array after the region: `layerArr` of the arrays the region found. -/
theorem final (c : Dev nD) :
    (dat1 V c).arrAt 5 cfg1.N = layerArr (V c main_v26) (V c main_v39) (V c main_arg5) (V c main_arg7) (V c main_v40) :=
  (dat1 V c).arrAt_eq_of_cover 5 _ (fun t _ => flushed_eq V c t) cover

end Cert.KArr1

end
-- ==== Proof.Agg.lean ====
/-
  Mean aggregation over the edge list, as one function of a feature array and the edge array.

  Row 0 of the 2 × 1600000 edge array holds each edge's source node, row 1 its destination.  A negative source index is
  first wrapped by adding the node count.  The in-degree of a node is the number of edges ending there (a scatter-add of
  ones); `degInv` is one over the larger of the degree and 1.  The aggregate of a feature array `X` gathers row
  src(e) of `X` for every edge e, adds it into row dst(e) of a zero array (a scatter-add), and scales every row by
  the node's `degInv`.  Both programs compute exactly this chain of host operations, twice (on the input features
  and on the first layer's output); it is carried here as ONE function and never opened.
-/
import proofs.«107155_j2190433321456_1_alg».proof.Proof.Gen.KernelIdeal
import Idealize.ShloMosaic.PureOps.Ideal

noncomputable section

namespace Cert.Agg

open Idealize.ShloMosaic Cert.KernelIdeal Cert.KernelIdeal.Gen

abbrev EdgeArr := (⟨S2x1600000, .i32⟩ : BufTy).Contents (Elt Ideal)
abbrev FeatArr := (⟨S100000x128, .f32⟩ : BufTy).Contents (Elt Ideal)

/-- The edges' source nodes (row 0 of the edge array). -/
def src (E : EdgeArr) : (⟨S1600000, .i32⟩ : BufTy).Contents (Elt Ideal) :=
  shapeCast S1600000 (extractStridedSlice S1x1600000 ![0, 0] E slices_S2x1600000_S1x1600000_0_0) shapeCasts_S1x1600000_S1600000

/-- The edges' destination nodes (row 1 of the edge array). -/
def dst (E : EdgeArr) : (⟨S1600000, .i32⟩ : BufTy).Contents (Elt Ideal) :=
  shapeCast S1600000 (extractStridedSlice S1x1600000 ![1, 0] E slices_S2x1600000_S1x1600000_1_0) shapeCasts_S1x1600000_S1600000

/-- The source nodes with a negative index wrapped around by the node count. -/
def srcWrapped (E : EdgeArr) : (⟨S1600000, .i32⟩ : BufTy).Contents (Elt Ideal) :=
  select (cmpi .slt (src E) (broadcastInDim S1600000 ![] bcast_S_S1600000 (constantI S_ 32 0#32)))
    (addi (src E) (broadcastInDim S1600000 ![] bcast_S_S1600000 (constantI S_ 32 100000#32))) (src E)

/-- One over max(in-degree, 1), per node. -/
def degInv (E : EdgeArr) : (⟨S100000, .f32⟩ : BufTy).Contents (Elt Ideal) :=
  Host.divf (broadcastInDim S100000 ![] bcast_S_S100000 (constant (F := Ideal) S_ .f32 0x3F800000#32))
    (maximumf
      (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0 (dst E))
        (broadcastInDim S1600000 ![] bcast_S_S1600000 (constant (F := Ideal) S_ .f32 0x3F800000#32)))
      (broadcastInDim S100000 ![] bcast_S_S100000 (constant (F := Ideal) S_ .f32 0x3F800000#32)))

/-- The mean of the neighbours' rows of `X`, per node. -/
def agg (X : FeatArr) (E : EdgeArr) : FeatArr :=
  mulf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 (dst E))
      (Host.gather gather_S100000x128_S1600000x1_S1600000x128_1_0_n_n_0_1_1128 X
        (broadcastInDim S1600000x1 ![0] bcast_S1600000_S1600000x1_0 (srcWrapped E))))
    (broadcastInDim S100000x128 ![0, 1] bcast_S100000x1_S100000x128_0_1
      (broadcastInDim S100000x1 ![0] bcast_S100000_S100000x1_0 (degInv E)))

end Cert.Agg

end
-- ==== Proof.Network.lean ====
/-
  The two-layer network as one function of the eight argument arrays, on the extended reals.

  Layer 1 maps the input features `X` and their neighbour averages to `H1` (row by row: the normalised, rectified
  pre-activation); layer 2 maps `H1` and ITS neighbour averages to the row-wise log-softmax of the same pipeline
  with the second layer's weights.  The biases enter as 1 × D rows.  This is the function both programs are shown to
  compute; the aggregation and the layers are named, not opened.
-/
import proofs.«107155_j2190433321456_1_alg».proof.Proof.KArr0
import proofs.«107155_j2190433321456_1_alg».proof.Proof.KArr1
import proofs.«107155_j2190433321456_1_alg».proof.Proof.Agg

noncomputable section

namespace Cert.Network

open Idealize.ShloMosaic Cert.KernelIdeal Cert.KernelIdeal.Gen

/-- The whole two-layer network on the extended reals, as a function of the eight argument arrays. -/
def network (X : Agg.FeatArr) (E : Agg.EdgeArr)
    (Wl1 : (⟨S128x128, .f32⟩ : BufTy).Contents (Elt Ideal)) (b1 : (⟨S128, .f32⟩ : BufTy).Contents (Elt Ideal))
    (Wr1 : (⟨S128x128, .f32⟩ : BufTy).Contents (Elt Ideal))
    (Wl2 : (⟨S40x128, .f32⟩ : BufTy).Contents (Elt Ideal)) (b2 : (⟨S40, .f32⟩ : BufTy).Contents (Elt Ideal))
    (Wr2 : (⟨S40x128, .f32⟩ : BufTy).Contents (Elt Ideal)) : (⟨S100000x40, .f32⟩ : BufTy).Contents (Elt Ideal) :=
  Cert.KArr1.layerArr
    (Cert.KArr0.layerArr X (Agg.agg X E) Wl1 Wr1 (shapeCast S1x128 b1 shapeCasts_S128_S1x128))
    (Agg.agg (Cert.KArr0.layerArr X (Agg.agg X E) Wl1 Wr1 (shapeCast S1x128 b1 shapeCasts_S128_S1x128)) E)
    Wl2 Wr2 (shapeCast S1x40 b2 shapeCasts_S40_S1x40)

end Cert.Network

end
-- ==== Proof.KHost.lean ====
/-
  The idealised kernel program's result as one function of its arguments.

  Walking the four stretches of the program from the launch memory: the first stretch of host operations leaves the
  neighbour averages of the input features (`Agg.agg`), the bias as a 1 × 128 row, and the per-edge and per-node
  index data; the first region leaves the first layer's output `H1` (a `layerArr` of what it found); the second
  stretch leaves the neighbour averages of `H1` — the same host chain, applied to `H1` — and the second bias as
  a row; the second region leaves the program's result, the second `layerArr`.  Nothing here opens a layer or the
  aggregation: each boundary's contents are named and carried along.
-/
import proofs.«107155_j2190433321456_1_alg».proof.Proof.Gen.KernelIdeal.Frame
import proofs.«107155_j2190433321456_1_alg».proof.Proof.KArr0
import proofs.«107155_j2190433321456_1_alg».proof.Proof.KArr1
import proofs.«107155_j2190433321456_1_alg».proof.Proof.Agg
import proofs.«107155_j2190433321456_1_alg».proof.Proof.Network
import Idealize.ShloMosaic.Lib.StableHlo.Run

set_option maxRecDepth 16384

noncomputable section

namespace Cert.KHost

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## After the first stretch of host operations -/

set_option maxHeartbeats 4000000 in
theorem W1_v24 : (W1 m ρ c (Proc.devRef .tc main_v24) : Agg.FeatArr)
    = Agg.agg (m ((c : Thread nD τ).loc main_arg0)) (m ((c : Thread nD τ).loc main_arg1)) := by
  show StableHlo.after hostOps0 (W0 m ρ c) (Proc.devRef .tc main_v24) = _
  after_results_simp
  rfl

set_option maxHeartbeats 4000000 in
theorem W1_v25 : (W1 m ρ c (Proc.devRef .tc main_v25) : (⟨S1x128, .f32⟩ : BufTy).Contents (Elt Ideal))
    = shapeCast S1x128 (m ((c : Thread nD τ).loc main_arg3)) shapeCasts_S128_S1x128 := by
  show StableHlo.after hostOps0 (W0 m ρ c) (Proc.devRef .tc main_v25) = _
  after_results_simp
  rfl

set_option maxHeartbeats 4000000 in
theorem W1_v1 : (W1 m ρ c (Proc.devRef .tc main_v1) : (⟨S1600000, .i32⟩ : BufTy).Contents (Elt Ideal))
    = Agg.src (m ((c : Thread nD τ).loc main_arg1)) := by
  show StableHlo.after hostOps0 (W0 m ρ c) (Proc.devRef .tc main_v1) = _
  after_results_simp
  rfl

set_option maxHeartbeats 4000000 in
theorem W1_v3 : (W1 m ρ c (Proc.devRef .tc main_v3) : (⟨S1600000, .i32⟩ : BufTy).Contents (Elt Ideal))
    = Agg.dst (m ((c : Thread nD τ).loc main_arg1)) := by
  show StableHlo.after hostOps0 (W0 m ρ c) (Proc.devRef .tc main_v3) = _
  after_results_simp
  rfl

set_option maxHeartbeats 4000000 in
theorem W1_v11 : (W1 m ρ c (Proc.devRef .tc main_v11) : (⟨S100000, .f32⟩ : BufTy).Contents (Elt Ideal))
    = Agg.degInv (m ((c : Thread nD τ).loc main_arg1)) := by
  show StableHlo.after hostOps0 (W0 m ρ c) (Proc.devRef .tc main_v11) = _
  after_results_simp
  rfl

set_option maxHeartbeats 4000000 in
theorem W1_arg (r : Ref sig .tc) (hr : r = main_arg0 ∨ r = main_arg2 ∨ r = main_arg4 ∨ r = main_arg5 ∨ r = main_arg6 ∨ r = main_arg7) :
    W1 m ρ c (Proc.devRef .tc r) = m ((c : Thread nD τ).loc r) := by
  show StableHlo.after hostOps0 (W0 m ρ c) (Proc.devRef .tc r) = _
  rcases hr with rfl | rfl | rfl | rfl | rfl | rfl <;> (after_results_simp <;> rfl)

/-! ## After the first region: its output array is the first layer of the launch arrays -/

theorem W2_v26 : W2 m ρ c (Proc.devRef .tc main_v26)
    = Cert.KArr0.layerArr (m ((c : Thread nD τ).loc main_arg0)) (Agg.agg (m ((c : Thread nD τ).loc main_arg0)) (m ((c : Thread nD τ).loc main_arg1))) (m ((c : Thread nD τ).loc main_arg2)) (m ((c : Thread nD τ).loc main_arg4)) (shapeCast S1x128 (m ((c : Thread nD τ).loc main_arg3)) shapeCasts_S128_S1x128) := by
  refine (W2_arr m ρ c 5).trans ?_
  rw [Cert.KArr0.final (V1 m ρ) c]
  have e0 : V1 m ρ c main_arg0 = (m ((c : Thread nD τ).loc main_arg0)) := W1_arg m ρ c main_arg0 (Or.inl rfl)
  have e2 : V1 m ρ c main_arg2 = (m ((c : Thread nD τ).loc main_arg2)) := W1_arg m ρ c main_arg2 (Or.inr (Or.inl rfl))
  have e4 : V1 m ρ c main_arg4 = (m ((c : Thread nD τ).loc main_arg4)) := W1_arg m ρ c main_arg4 (Or.inr (Or.inr (Or.inl rfl)))
  have e24 : V1 m ρ c main_v24 = Agg.agg (m ((c : Thread nD τ).loc main_arg0)) (m ((c : Thread nD τ).loc main_arg1)) := W1_v24 m ρ c
  have e25 : V1 m ρ c main_v25 = shapeCast S1x128 (m ((c : Thread nD τ).loc main_arg3)) shapeCasts_S128_S1x128 := W1_v25 m ρ c
  rw [e0, e2, e4, e24, e25]

/-! ## After the second stretch of host operations -/

set_option maxHeartbeats 4000000 in
theorem W3_v39 : (W3 m ρ c (Proc.devRef .tc main_v39) : Agg.FeatArr)
    = Agg.agg (W2 m ρ c (Proc.devRef .tc main_v26)) (m ((c : Thread nD τ).loc main_arg1)) := by
  have h1 : W2 m ρ c (Proc.devRef .tc main_v1) = Agg.src (m ((c : Thread nD τ).loc main_arg1)) := (W2_of_ne m ρ c main_v1 (by decide)).trans (W1_v1 m ρ c)
  have h3 : W2 m ρ c (Proc.devRef .tc main_v3) = Agg.dst (m ((c : Thread nD τ).loc main_arg1)) := (W2_of_ne m ρ c main_v3 (by decide)).trans (W1_v3 m ρ c)
  have h11 : W2 m ρ c (Proc.devRef .tc main_v11) = Agg.degInv (m ((c : Thread nD τ).loc main_arg1)) := (W2_of_ne m ρ c main_v11 (by decide)).trans (W1_v11 m ρ c)
  show StableHlo.after hostOps1 (W2 m ρ c) (Proc.devRef .tc main_v39) = _
  revert h1 h3 h11
  generalize W2 m ρ c = U
  intro h1 h3 h11
  after_results_simp
  rw [h1, h3, h11]
  rfl

set_option maxHeartbeats 4000000 in
theorem W3_v26 : W3 m ρ c (Proc.devRef .tc main_v26) = W2 m ρ c (Proc.devRef .tc main_v26) := by
  show StableHlo.after hostOps1 (W2 m ρ c) (Proc.devRef .tc main_v26) = _
  generalize W2 m ρ c = U
  after_results_simp

set_option maxHeartbeats 4000000 in
theorem W3_v40 : (W3 m ρ c (Proc.devRef .tc main_v40) : (⟨S1x40, .f32⟩ : BufTy).Contents (Elt Ideal))
    = shapeCast S1x40 (m ((c : Thread nD τ).loc main_arg6)) shapeCasts_S40_S1x40 := by
  have h6 : W2 m ρ c (Proc.devRef .tc main_arg6) = (m ((c : Thread nD τ).loc main_arg6)) :=
    (W2_of_ne m ρ c main_arg6 (by decide)).trans (W1_arg m ρ c main_arg6 (Or.inr (Or.inr (Or.inr (Or.inr (Or.inl rfl))))))
  show StableHlo.after hostOps1 (W2 m ρ c) (Proc.devRef .tc main_v40) = _
  revert h6
  generalize W2 m ρ c = U
  intro h6
  after_results_simp
  rw [h6]
  rfl

set_option maxHeartbeats 4000000 in
theorem W3_arg5 : W3 m ρ c (Proc.devRef .tc main_arg5) = (m ((c : Thread nD τ).loc main_arg5)) := by
  have h : W2 m ρ c (Proc.devRef .tc main_arg5) = (m ((c : Thread nD τ).loc main_arg5)) :=
    (W2_of_ne m ρ c main_arg5 (by decide)).trans (W1_arg m ρ c main_arg5 (Or.inr (Or.inr (Or.inr (Or.inl rfl)))))
  show StableHlo.after hostOps1 (W2 m ρ c) (Proc.devRef .tc main_arg5) = _
  revert h
  generalize W2 m ρ c = U
  intro h
  after_results_simp
  exact h

set_option maxHeartbeats 4000000 in
theorem W3_arg7 : W3 m ρ c (Proc.devRef .tc main_arg7) = (m ((c : Thread nD τ).loc main_arg7)) := by
  have h : W2 m ρ c (Proc.devRef .tc main_arg7) = (m ((c : Thread nD τ).loc main_arg7)) :=
    (W2_of_ne m ρ c main_arg7 (by decide)).trans (W1_arg m ρ c main_arg7 (Or.inr (Or.inr (Or.inr (Or.inr (Or.inr rfl))))))
  show StableHlo.after hostOps1 (W2 m ρ c) (Proc.devRef .tc main_arg7) = _
  revert h
  generalize W2 m ρ c = U
  intro h
  after_results_simp
  exact h

/-! ## After the second region: the program's result -/

/-- The result buffer ends at the two-layer network of the launch arrays. -/
theorem result_eq : W4 m ρ c (Proc.devRef .tc main_v41)
    = Cert.Network.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ?_
  rw [Cert.KArr1.final (V3 m ρ) c]
  have e26 : V3 m ρ c main_v26 = W2 m ρ c (Proc.devRef .tc main_v26) := W3_v26 m ρ c
  have e39 : V3 m ρ c main_v39 = Agg.agg (W2 m ρ c (Proc.devRef .tc main_v26)) (m ((c : Thread nD τ).loc main_arg1)) := W3_v39 m ρ c
  have e5 : V3 m ρ c main_arg5 = (m ((c : Thread nD τ).loc main_arg5)) := W3_arg5 m ρ c
  have e7 : V3 m ρ c main_arg7 = (m ((c : Thread nD τ).loc main_arg7)) := W3_arg7 m ρ c
  have e40 : V3 m ρ c main_v40 = shapeCast S1x40 (m ((c : Thread nD τ).loc main_arg6)) shapeCasts_S40_S1x40 := W3_v40 m ρ c
  rw [e26, e39, e5, e7, e40, W2_v26]
  rfl

end Cert.KHost

end
-- ==== Proof.RefRun.lean ====
/-
  The reference program as a list of host operations, and its run.

  The jnp reference has no kernel: its entry point is a straight line of 105 array operations (the three functions it
  calls — the two rectifiers and the log-softmax — written out where they are called).  Every weakly fair execution of
  such a line terminates without a fault, and every buffer ends at the fold of the operations over the launch memory:
  `StableHlo.after ops` of the launch contents.  The fold is left folded here; Proof/RefStages.lean evaluates it
  stage by stage.
-/
import proofs.«107155_j2190433321456_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The reference program's 105 host operations, in program order (a called function's operations stand in its call's place). -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (maximumf : (⟨S100000, .f32⟩ : BufTy).Contents (Elt F) → (⟨S100000, .f32⟩ : BufTy).Contents (Elt F) → (⟨S100000, .f32⟩ : BufTy).Contents (Elt F)),
    nullary main_cst_2 (constant S_ .f32 0x3F800000#32),
    unary main_cst_2 main_v10 (broadcastInDim S100000 ![] bcast_S_S100000 : (⟨S_, .f32⟩ : BufTy).Contents (Elt F) → (⟨S100000, .f32⟩ : BufTy).Contents (Elt F)),
    binary main_v10 main_v9 main_v11 (Host.divf : (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_v1 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v14 (broadcastInDim S1600000 ![] bcast_S_S1600000 : (⟨S_, .i32⟩ : BufTy).Contents (Elt F) → (⟨S1600000, .i32⟩ : BufTy).Contents (Elt F)),
    binary main_v1 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_arg0 main_v17 main_v18 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_4 (constant S_ .f32 0x00000000#32),
    unary main_cst_4 main_v19 (broadcastInDim S100000x128 ![] bcast_S_S100000x128 : (⟨S_, .f32⟩ : BufTy).Contents (Elt F) → (⟨S100000x128, .f32⟩ : BufTy).Contents (Elt F)),
    unary main_v3 main_v20 (broadcastInDim S1600000x1 ![0] bcast_S1600000_S1600000x1_0 : (⟨S1600000, .i32⟩ : BufTy).Contents (Elt F) → (⟨S1600000x1, .i32⟩ : BufTy).Contents (Elt F)),
    ternary main_v19 main_v20 main_v18 main_v21 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v11 main_v22 (broadcastInDim S100000x1 ![0] bcast_S100000_S100000x1_0 : (⟨S100000, .f32⟩ : BufTy).Contents (Elt F) → (⟨S100000x1, .f32⟩ : BufTy).Contents (Elt F)),
    unary main_v22 main_v23 (broadcastInDim S100000x128 ![0, 1] bcast_S100000x1_S100000x128_0_1 : (⟨S100000x1, .f32⟩ : BufTy).Contents (Elt F) → (⟨S100000x128, .f32⟩ : BufTy).Contents (Elt F)),
    binary main_v21 main_v23 main_v24 (mulf : (⟨S100000x128, .f32⟩ : BufTy).Contents (Elt F) → (⟨S100000x128, .f32⟩ : BufTy).Contents (Elt F) → (⟨S100000x128, .f32⟩ : BufTy).Contents (Elt F)),
    unary main_arg2 main_v25 ((transpose S128x128 [1, 0] · transposes_S128x128_S128x128_1_0) : (⟨S128x128, .f32⟩ : BufTy).Contents (Elt F) → (⟨S128x128, .f32⟩ : BufTy).Contents (Elt F)),
    binary main_v24 main_v25 main_v26 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v27 (broadcastInDim S1x128 ![1] bcast_S128_S1x128_1 : (⟨S128, .f32⟩ : BufTy).Contents (Elt F) → (⟨S1x128, .f32⟩ : BufTy).Contents (Elt F)),
    unary main_v27 main_v28 (broadcastInDim S100000x128 ![0, 1] bcast_S1x128_S100000x128_0_1 : (⟨S1x128, .f32⟩ : BufTy).Contents (Elt F) → (⟨S100000x128, .f32⟩ : BufTy).Contents (Elt F)),
    binary main_v26 main_v28 main_v29 (addf : (⟨S100000x128, .f32⟩ : BufTy).Contents (Elt F) → (⟨S100000x128, .f32⟩ : BufTy).Contents (Elt F) → (⟨S100000x128, .f32⟩ : BufTy).Contents (Elt F)),
    unary main_arg4 main_v30 ((transpose S128x128 [1, 0] · transposes_S128x128_S128x128_1_0) : (⟨S128x128, .f32⟩ : BufTy).Contents (Elt F) → (⟨S128x128, .f32⟩ : BufTy).Contents (Elt F)),
    binary main_arg0 main_v30 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v29 main_v31 main_v32 (addf : (⟨S100000x128, .f32⟩ : BufTy).Contents (Elt F) → (⟨S100000x128, .f32⟩ : BufTy).Contents (Elt F) → (⟨S100000x128, .f32⟩ : BufTy).Contents (Elt F)),
    binary main_v32 main_v32 main_v33 (mulf : (⟨S100000x128, .f32⟩ : BufTy).Contents (Elt F) → (⟨S100000x128, .f32⟩ : BufTy).Contents (Elt F) → (⟨S100000x128, .f32⟩ : BufTy).Contents (Elt F)),
    nullary main_cst_5 (constant S_ .f32 0x00000000#32),
    binary main_v33 main_cst_5 main_v34 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v34 main_v35 (broadcastInDim S100000x1 ![0] bcast_S100000_S100000x1_0 : (⟨S100000, .f32⟩ : BufTy).Contents (Elt F) → (⟨S100000x1, .f32⟩ : BufTy).Contents (Elt F)),
    unary main_v35 main_v36 (Host.sqrt : (⟨S100000x1, .f32⟩ : BufTy).Contents (Elt F) → (⟨S100000x1, .f32⟩ : BufTy).Contents (Elt F)),
    nullary main_cst_6 (constant S_ .f32 0x2B8CBCCC#32),
    unary main_cst_6 main_v37 (broadcastInDim S100000x1 ![] bcast_S_S100000x1 : (⟨S_, .f32⟩ : BufTy).Contents (Elt F) → (⟨S100000x1, .f32⟩ : BufTy).Contents (Elt F)),
    binary main_v36 main_v37 main_v38 (maximumf : (⟨S100000x1, .f32⟩ : BufTy).Contents (Elt F) → (⟨S100000x1, .f32⟩ : BufTy).Contents (Elt F) → (⟨S100000x1, .f32⟩ : BufTy).Contents (Elt F)),
    unary main_v38 main_v39 (broadcastInDim S100000x128 ![0, 1] bcast_S100000x1_S100000x128_0_1 : (⟨S100000x1, .f32⟩ : BufTy).Contents (Elt F) → (⟨S100000x128, .f32⟩ : BufTy).Contents (Elt F)),
    binary main_v32 main_v39 main_v40 (Host.divf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v40) (TRef.of (T := ⟨S100000x128, .f32⟩) main_call0_v0) (TRef.of (T := ⟨S100000x128, .f32⟩) main_v41) maximumf,
    nullary main_c_7 (constantI S_ 32 0#32),
    unary main_c_7 main_v42 (broadcastInDim S1600000 ![] bcast_S_S1600000 : (⟨S_, .i32⟩ : BufTy).Contents (Elt F) → (⟨S1600000, .i32⟩ : BufTy).Contents (Elt F)),
    binary main_v1 main_v42 main_v43 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v44 (broadcastInDim S1600000 ![] bcast_S_S1600000 : (⟨S_, .i32⟩ : BufTy).Contents (Elt F) → (⟨S1600000, .i32⟩ : BufTy).Contents (Elt F)),
    binary main_v1 main_v44 main_v45 (addi : (⟨S1600000, .i32⟩ : BufTy).Contents (Elt F) → (⟨S1600000, .i32⟩ : BufTy).Contents (Elt F) → (⟨S1600000, .i32⟩ : BufTy).Contents (Elt F)),
    ternary main_v43 main_v45 main_v1 main_v46 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v46 main_v47 (broadcastInDim S1600000x1 ![0] bcast_S1600000_S1600000x1_0 : (⟨S1600000, .i32⟩ : BufTy).Contents (Elt F) → (⟨S1600000x1, .i32⟩ : BufTy).Contents (Elt F)),
    binary main_v41 main_v47 main_v48 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_9 (constant S_ .f32 0x00000000#32),
    unary main_cst_9 main_v49 (broadcastInDim S100000x128 ![] bcast_S_S100000x128 : (⟨S_, .f32⟩ : BufTy).Contents (Elt F) → (⟨S100000x128, .f32⟩ : BufTy).Contents (Elt F)),
    unary main_v3 main_v50 (broadcastInDim S1600000x1 ![0] bcast_S1600000_S1600000x1_0 : (⟨S1600000, .i32⟩ : BufTy).Contents (Elt F) → (⟨S1600000x1, .i32⟩ : BufTy).Contents (Elt F)),
    ternary main_v49 main_v50 main_v48 main_v51 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v11 main_v52 (broadcastInDim S100000x1 ![0] bcast_S100000_S100000x1_0 : (⟨S100000, .f32⟩ : BufTy).Contents (Elt F) → (⟨S100000x1, .f32⟩ : BufTy).Contents (Elt F)),
    unary main_v52 main_v53 (broadcastInDim S100000x128 ![0, 1] bcast_S100000x1_S100000x128_0_1 : (⟨S100000x1, .f32⟩ : BufTy).Contents (Elt F) → (⟨S100000x128, .f32⟩ : BufTy).Contents (Elt F)),
    binary main_v51 main_v53 main_v54 (mulf : (⟨S100000x128, .f32⟩ : BufTy).Contents (Elt F) → (⟨S100000x128, .f32⟩ : BufTy).Contents (Elt F) → (⟨S100000x128, .f32⟩ : BufTy).Contents (Elt F)),
    unary main_arg5 main_v55 ((transpose S128x40 [1, 0] · transposes_S40x128_S128x40_1_0) : (⟨S40x128, .f32⟩ : BufTy).Contents (Elt F) → (⟨S128x40, .f32⟩ : BufTy).Contents (Elt F)),
    binary main_v54 main_v55 main_v56 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg6 main_v57 (broadcastInDim S1x40 ![1] bcast_S40_S1x40_1 : (⟨S40, .f32⟩ : BufTy).Contents (Elt F) → (⟨S1x40, .f32⟩ : BufTy).Contents (Elt F)),
    unary main_v57 main_v58 (broadcastInDim S100000x40 ![0, 1] bcast_S1x40_S100000x40_0_1 : (⟨S1x40, .f32⟩ : BufTy).Contents (Elt F) → (⟨S100000x40, .f32⟩ : BufTy).Contents (Elt F)),
    binary main_v56 main_v58 main_v59 (addf : (⟨S100000x40, .f32⟩ : BufTy).Contents (Elt F) → (⟨S100000x40, .f32⟩ : BufTy).Contents (Elt F) → (⟨S100000x40, .f32⟩ : BufTy).Contents (Elt F)),
    unary main_arg7 main_v60 ((transpose S128x40 [1, 0] · transposes_S40x128_S128x40_1_0) : (⟨S40x128, .f32⟩ : BufTy).Contents (Elt F) → (⟨S128x40, .f32⟩ : BufTy).Contents (Elt F)),
    binary main_v41 main_v60 main_v61 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    binary main_v59 main_v61 main_v62 (addf : (⟨S100000x40, .f32⟩ : BufTy).Contents (Elt F) → (⟨S100000x40, .f32⟩ : BufTy).Contents (Elt F) → (⟨S100000x40, .f32⟩ : BufTy).Contents (Elt F)),
    binary main_v62 main_v62 main_v63 (mulf : (⟨S100000x40, .f32⟩ : BufTy).Contents (Elt F) → (⟨S100000x40, .f32⟩ : BufTy).Contents (Elt F) → (⟨S100000x40, .f32⟩ : BufTy).Contents (Elt F)),
    nullary main_cst_10 (constant S_ .f32 0x00000000#32),
    binary main_v63 main_cst_10 main_v64 ((fun x v => Host.reduceAdd x v reducesTo_S100000x40_S100000_d1 h_S_) : (⟨S100000x40, .f32⟩ : BufTy).Contents (Elt F) → (⟨S_, .f32⟩ : BufTy).Contents (Elt F) → (⟨S100000, .f32⟩ : BufTy).Contents (Elt F)),
    unary main_v64 main_v65 (broadcastInDim S100000x1 ![0] bcast_S100000_S100000x1_0 : (⟨S100000, .f32⟩ : BufTy).Contents (Elt F) → (⟨S100000x1, .f32⟩ : BufTy).Contents (Elt F)),
    unary main_v65 main_v66 (Host.sqrt : (⟨S100000x1, .f32⟩ : BufTy).Contents (Elt F) → (⟨S100000x1, .f32⟩ : BufTy).Contents (Elt F)),
    nullary main_cst_11 (constant S_ .f32 0x2B8CBCCC#32),
    unary main_cst_11 main_v67 (broadcastInDim S100000x1 ![] bcast_S_S100000x1 : (⟨S_, .f32⟩ : BufTy).Contents (Elt F) → (⟨S100000x1, .f32⟩ : BufTy).Contents (Elt F)),
    binary main_v66 main_v67 main_v68 (maximumf : (⟨S100000x1, .f32⟩ : BufTy).Contents (Elt F) → (⟨S100000x1, .f32⟩ : BufTy).Contents (Elt F) → (⟨S100000x1, .f32⟩ : BufTy).Contents (Elt F)),
    unary main_v68 main_v69 (broadcastInDim S100000x40 ![0, 1] bcast_S100000x1_S100000x40_0_1 : (⟨S100000x1, .f32⟩ : BufTy).Contents (Elt F) → (⟨S100000x40, .f32⟩ : BufTy).Contents (Elt F)),
    binary main_v62 main_v69 main_v70 (Host.divf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x40, .f32⟩) main_call1_v0) (broadcastInDim S100000x40 ![] bcast_S_S100000x40),
    TRef.binary (TRef.of (T := ⟨S100000x40, .f32⟩) main_v70) (TRef.of (T := ⟨S100000x40, .f32⟩) main_call1_v0) (TRef.of (T := ⟨S100000x40, .f32⟩) main_v71) maximumf,
    TRef.nullary (TRef.of (T := ⟨S_, .f32⟩) main_call2_cst) (constant S_ .f32 0xFF800000#32),
    TRef.binary (TRef.of (T := ⟨S100000x40, .f32⟩) main_v71) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v71) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v72) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- On every device, from any memory with zero counters: every weakly fair execution of the reference terminates,
    nothing faulting, with every buffer at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.RefRun

end
-- ==== Proof.RefStages.lean ====
/-
  The reference's fold of host operations, evaluated in four stages.

  The 105 operations fall into four consecutive stretches: (A) the edge bookkeeping and the neighbour averages of the
  input features; (B) the first layer's dense half and its rectifier; (C) the neighbour averages of the first layer's
  output; (D) the second layer's dense half, rectifier and log-softmax.  The fold over the whole list is the fold of
  (D) over that of (C) over that of (B) over that of (A).  Each stretch is evaluated from ARBITRARY buffer contents
  `V` of which only what the stretch reads is assumed, so that no term ever holds more than one stretch; the result
  of a stretch is the corresponding stage `val_…` of the reference read one operation at a time.
-/
import proofs.«107155_j2190433321456_1_alg».proof.Proof.RefRun
import proofs.«107155_j2190433321456_1_alg».proof.Proof.RefRead

set_option maxRecDepth 16384

noncomputable section

namespace Cert.RefStages

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The fold over a concatenation is the fold of the second list over the fold of the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- Contents carried to a buffer's own type and back are unchanged. -/
theorem ofBuf_toBuf {sig : RefSig} {Val : EltTy → Type} {T : BufTy} (x : TRef sig T) (v : T.Contents Val) : x.ofBuf (x.toBuf v) = v := by
  rcases x with ⟨r, rfl, hd, hs⟩
  rfl

/-- (A) edge bookkeeping and the neighbour averages of the input features. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (maximumf : (⟨S100000, .f32⟩ : BufTy).Contents (Elt F) → (⟨S100000, .f32⟩ : BufTy).Contents (Elt F) → (⟨S100000, .f32⟩ : BufTy).Contents (Elt F)),
    nullary main_cst_2 (constant S_ .f32 0x3F800000#32),
    unary main_cst_2 main_v10 (broadcastInDim S100000 ![] bcast_S_S100000 : (⟨S_, .f32⟩ : BufTy).Contents (Elt F) → (⟨S100000, .f32⟩ : BufTy).Contents (Elt F)),
    binary main_v10 main_v9 main_v11 (Host.divf : (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_v1 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v14 (broadcastInDim S1600000 ![] bcast_S_S1600000 : (⟨S_, .i32⟩ : BufTy).Contents (Elt F) → (⟨S1600000, .i32⟩ : BufTy).Contents (Elt F)),
    binary main_v1 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_arg0 main_v17 main_v18 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_4 (constant S_ .f32 0x00000000#32),
    unary main_cst_4 main_v19 (broadcastInDim S100000x128 ![] bcast_S_S100000x128 : (⟨S_, .f32⟩ : BufTy).Contents (Elt F) → (⟨S100000x128, .f32⟩ : BufTy).Contents (Elt F)),
    unary main_v3 main_v20 (broadcastInDim S1600000x1 ![0] bcast_S1600000_S1600000x1_0 : (⟨S1600000, .i32⟩ : BufTy).Contents (Elt F) → (⟨S1600000x1, .i32⟩ : BufTy).Contents (Elt F)),
    ternary main_v19 main_v20 main_v18 main_v21 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v11 main_v22 (broadcastInDim S100000x1 ![0] bcast_S100000_S100000x1_0 : (⟨S100000, .f32⟩ : BufTy).Contents (Elt F) → (⟨S100000x1, .f32⟩ : BufTy).Contents (Elt F)),
    unary main_v22 main_v23 (broadcastInDim S100000x128 ![0, 1] bcast_S100000x1_S100000x128_0_1 : (⟨S100000x1, .f32⟩ : BufTy).Contents (Elt F) → (⟨S100000x128, .f32⟩ : BufTy).Contents (Elt F)),
    binary main_v21 main_v23 main_v24 (mulf : (⟨S100000x128, .f32⟩ : BufTy).Contents (Elt F) → (⟨S100000x128, .f32⟩ : BufTy).Contents (Elt F) → (⟨S100000x128, .f32⟩ : BufTy).Contents (Elt F)) ]

/-- (B) the first layer's dense half and rectifier. -/
abbrev opsB : List (HloOp τ sig (Elt F)) :=
  [ unary main_arg2 main_v25 ((transpose S128x128 [1, 0] · transposes_S128x128_S128x128_1_0) : (⟨S128x128, .f32⟩ : BufTy).Contents (Elt F) → (⟨S128x128, .f32⟩ : BufTy).Contents (Elt F)),
    binary main_v24 main_v25 main_v26 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v27 (broadcastInDim S1x128 ![1] bcast_S128_S1x128_1 : (⟨S128, .f32⟩ : BufTy).Contents (Elt F) → (⟨S1x128, .f32⟩ : BufTy).Contents (Elt F)),
    unary main_v27 main_v28 (broadcastInDim S100000x128 ![0, 1] bcast_S1x128_S100000x128_0_1 : (⟨S1x128, .f32⟩ : BufTy).Contents (Elt F) → (⟨S100000x128, .f32⟩ : BufTy).Contents (Elt F)),
    binary main_v26 main_v28 main_v29 (addf : (⟨S100000x128, .f32⟩ : BufTy).Contents (Elt F) → (⟨S100000x128, .f32⟩ : BufTy).Contents (Elt F) → (⟨S100000x128, .f32⟩ : BufTy).Contents (Elt F)),
    unary main_arg4 main_v30 ((transpose S128x128 [1, 0] · transposes_S128x128_S128x128_1_0) : (⟨S128x128, .f32⟩ : BufTy).Contents (Elt F) → (⟨S128x128, .f32⟩ : BufTy).Contents (Elt F)),
    binary main_arg0 main_v30 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v29 main_v31 main_v32 (addf : (⟨S100000x128, .f32⟩ : BufTy).Contents (Elt F) → (⟨S100000x128, .f32⟩ : BufTy).Contents (Elt F) → (⟨S100000x128, .f32⟩ : BufTy).Contents (Elt F)),
    binary main_v32 main_v32 main_v33 (mulf : (⟨S100000x128, .f32⟩ : BufTy).Contents (Elt F) → (⟨S100000x128, .f32⟩ : BufTy).Contents (Elt F) → (⟨S100000x128, .f32⟩ : BufTy).Contents (Elt F)),
    nullary main_cst_5 (constant S_ .f32 0x00000000#32),
    binary main_v33 main_cst_5 main_v34 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v34 main_v35 (broadcastInDim S100000x1 ![0] bcast_S100000_S100000x1_0 : (⟨S100000, .f32⟩ : BufTy).Contents (Elt F) → (⟨S100000x1, .f32⟩ : BufTy).Contents (Elt F)),
    unary main_v35 main_v36 (Host.sqrt : (⟨S100000x1, .f32⟩ : BufTy).Contents (Elt F) → (⟨S100000x1, .f32⟩ : BufTy).Contents (Elt F)),
    nullary main_cst_6 (constant S_ .f32 0x2B8CBCCC#32),
    unary main_cst_6 main_v37 (broadcastInDim S100000x1 ![] bcast_S_S100000x1 : (⟨S_, .f32⟩ : BufTy).Contents (Elt F) → (⟨S100000x1, .f32⟩ : BufTy).Contents (Elt F)),
    binary main_v36 main_v37 main_v38 (maximumf : (⟨S100000x1, .f32⟩ : BufTy).Contents (Elt F) → (⟨S100000x1, .f32⟩ : BufTy).Contents (Elt F) → (⟨S100000x1, .f32⟩ : BufTy).Contents (Elt F)),
    unary main_v38 main_v39 (broadcastInDim S100000x128 ![0, 1] bcast_S100000x1_S100000x128_0_1 : (⟨S100000x1, .f32⟩ : BufTy).Contents (Elt F) → (⟨S100000x128, .f32⟩ : BufTy).Contents (Elt F)),
    binary main_v32 main_v39 main_v40 (Host.divf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v40) (TRef.of (T := ⟨S100000x128, .f32⟩) main_call0_v0) (TRef.of (T := ⟨S100000x128, .f32⟩) main_v41) maximumf ]

/-- (C) the neighbour averages of the first layer's output. -/
abbrev opsC : List (HloOp τ sig (Elt F)) :=
  [ nullary main_c_7 (constantI S_ 32 0#32),
    unary main_c_7 main_v42 (broadcastInDim S1600000 ![] bcast_S_S1600000 : (⟨S_, .i32⟩ : BufTy).Contents (Elt F) → (⟨S1600000, .i32⟩ : BufTy).Contents (Elt F)),
    binary main_v1 main_v42 main_v43 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v44 (broadcastInDim S1600000 ![] bcast_S_S1600000 : (⟨S_, .i32⟩ : BufTy).Contents (Elt F) → (⟨S1600000, .i32⟩ : BufTy).Contents (Elt F)),
    binary main_v1 main_v44 main_v45 (addi : (⟨S1600000, .i32⟩ : BufTy).Contents (Elt F) → (⟨S1600000, .i32⟩ : BufTy).Contents (Elt F) → (⟨S1600000, .i32⟩ : BufTy).Contents (Elt F)),
    ternary main_v43 main_v45 main_v1 main_v46 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v46 main_v47 (broadcastInDim S1600000x1 ![0] bcast_S1600000_S1600000x1_0 : (⟨S1600000, .i32⟩ : BufTy).Contents (Elt F) → (⟨S1600000x1, .i32⟩ : BufTy).Contents (Elt F)),
    binary main_v41 main_v47 main_v48 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_9 (constant S_ .f32 0x00000000#32),
    unary main_cst_9 main_v49 (broadcastInDim S100000x128 ![] bcast_S_S100000x128 : (⟨S_, .f32⟩ : BufTy).Contents (Elt F) → (⟨S100000x128, .f32⟩ : BufTy).Contents (Elt F)),
    unary main_v3 main_v50 (broadcastInDim S1600000x1 ![0] bcast_S1600000_S1600000x1_0 : (⟨S1600000, .i32⟩ : BufTy).Contents (Elt F) → (⟨S1600000x1, .i32⟩ : BufTy).Contents (Elt F)),
    ternary main_v49 main_v50 main_v48 main_v51 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v11 main_v52 (broadcastInDim S100000x1 ![0] bcast_S100000_S100000x1_0 : (⟨S100000, .f32⟩ : BufTy).Contents (Elt F) → (⟨S100000x1, .f32⟩ : BufTy).Contents (Elt F)),
    unary main_v52 main_v53 (broadcastInDim S100000x128 ![0, 1] bcast_S100000x1_S100000x128_0_1 : (⟨S100000x1, .f32⟩ : BufTy).Contents (Elt F) → (⟨S100000x128, .f32⟩ : BufTy).Contents (Elt F)),
    binary main_v51 main_v53 main_v54 (mulf : (⟨S100000x128, .f32⟩ : BufTy).Contents (Elt F) → (⟨S100000x128, .f32⟩ : BufTy).Contents (Elt F) → (⟨S100000x128, .f32⟩ : BufTy).Contents (Elt F)) ]

/-- (D) the second layer's dense half and rectifier. -/
abbrev opsD : List (HloOp τ sig (Elt F)) :=
  [ unary main_arg5 main_v55 ((transpose S128x40 [1, 0] · transposes_S40x128_S128x40_1_0) : (⟨S40x128, .f32⟩ : BufTy).Contents (Elt F) → (⟨S128x40, .f32⟩ : BufTy).Contents (Elt F)),
    binary main_v54 main_v55 main_v56 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg6 main_v57 (broadcastInDim S1x40 ![1] bcast_S40_S1x40_1 : (⟨S40, .f32⟩ : BufTy).Contents (Elt F) → (⟨S1x40, .f32⟩ : BufTy).Contents (Elt F)),
    unary main_v57 main_v58 (broadcastInDim S100000x40 ![0, 1] bcast_S1x40_S100000x40_0_1 : (⟨S1x40, .f32⟩ : BufTy).Contents (Elt F) → (⟨S100000x40, .f32⟩ : BufTy).Contents (Elt F)),
    binary main_v56 main_v58 main_v59 (addf : (⟨S100000x40, .f32⟩ : BufTy).Contents (Elt F) → (⟨S100000x40, .f32⟩ : BufTy).Contents (Elt F) → (⟨S100000x40, .f32⟩ : BufTy).Contents (Elt F)),
    unary main_arg7 main_v60 ((transpose S128x40 [1, 0] · transposes_S40x128_S128x40_1_0) : (⟨S40x128, .f32⟩ : BufTy).Contents (Elt F) → (⟨S128x40, .f32⟩ : BufTy).Contents (Elt F)),
    binary main_v41 main_v60 main_v61 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    binary main_v59 main_v61 main_v62 (addf : (⟨S100000x40, .f32⟩ : BufTy).Contents (Elt F) → (⟨S100000x40, .f32⟩ : BufTy).Contents (Elt F) → (⟨S100000x40, .f32⟩ : BufTy).Contents (Elt F)),
    binary main_v62 main_v62 main_v63 (mulf : (⟨S100000x40, .f32⟩ : BufTy).Contents (Elt F) → (⟨S100000x40, .f32⟩ : BufTy).Contents (Elt F) → (⟨S100000x40, .f32⟩ : BufTy).Contents (Elt F)),
    nullary main_cst_10 (constant S_ .f32 0x00000000#32),
    binary main_v63 main_cst_10 main_v64 ((fun x v => Host.reduceAdd x v reducesTo_S100000x40_S100000_d1 h_S_) : (⟨S100000x40, .f32⟩ : BufTy).Contents (Elt F) → (⟨S_, .f32⟩ : BufTy).Contents (Elt F) → (⟨S100000, .f32⟩ : BufTy).Contents (Elt F)),
    unary main_v64 main_v65 (broadcastInDim S100000x1 ![0] bcast_S100000_S100000x1_0 : (⟨S100000, .f32⟩ : BufTy).Contents (Elt F) → (⟨S100000x1, .f32⟩ : BufTy).Contents (Elt F)),
    unary main_v65 main_v66 (Host.sqrt : (⟨S100000x1, .f32⟩ : BufTy).Contents (Elt F) → (⟨S100000x1, .f32⟩ : BufTy).Contents (Elt F)),
    nullary main_cst_11 (constant S_ .f32 0x2B8CBCCC#32),
    unary main_cst_11 main_v67 (broadcastInDim S100000x1 ![] bcast_S_S100000x1 : (⟨S_, .f32⟩ : BufTy).Contents (Elt F) → (⟨S100000x1, .f32⟩ : BufTy).Contents (Elt F)),
    binary main_v66 main_v67 main_v68 (maximumf : (⟨S100000x1, .f32⟩ : BufTy).Contents (Elt F) → (⟨S100000x1, .f32⟩ : BufTy).Contents (Elt F) → (⟨S100000x1, .f32⟩ : BufTy).Contents (Elt F)),
    unary main_v68 main_v69 (broadcastInDim S100000x40 ![0, 1] bcast_S100000x1_S100000x40_0_1 : (⟨S100000x1, .f32⟩ : BufTy).Contents (Elt F) → (⟨S100000x40, .f32⟩ : BufTy).Contents (Elt F)),
    binary main_v62 main_v69 main_v70 (Host.divf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x40, .f32⟩) main_call1_v0) (broadcastInDim S100000x40 ![] bcast_S_S100000x40),
    TRef.binary (TRef.of (T := ⟨S100000x40, .f32⟩) main_v70) (TRef.of (T := ⟨S100000x40, .f32⟩) main_call1_v0) (TRef.of (T := ⟨S100000x40, .f32⟩) main_v71) maximumf ]

/-- (E) the row-wise log-softmax. -/
abbrev opsE : List (HloOp τ sig (Elt F)) :=
  [ TRef.nullary (TRef.of (T := ⟨S_, .f32⟩) main_call2_cst) (constant S_ .f32 0xFF800000#32),
    TRef.binary (TRef.of (T := ⟨S100000x40, .f32⟩) main_v71) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v71) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v72) subf ]

theorem ops_split : (Cert.RefRun.ops (F := F)) = opsA ++ opsB ++ opsC ++ opsD ++ opsE := rfl

variable (V : Valuation τ sig (Elt F))
variable (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S40x128, .f32⟩ : BufTy).Contents (Elt F)) (x6 : (⟨S40, .f32⟩ : BufTy).Contents (Elt F)) (x7 : (⟨S40x128, .f32⟩ : BufTy).Contents (Elt F))

/-! ## Stage A -/

set_option maxHeartbeats 4000000 in
theorem A_v24 (h0 : V (Proc.devRef .tc main_arg0) = x0) (h1 : V (Proc.devRef .tc main_arg1) = x1) :
    after opsA V (Proc.devRef .tc main_v24) = val_main_v24 (F := F) x0 x1 := by
  after_results_simp
  rw [h0, h1]
  rfl

set_option maxHeartbeats 4000000 in
theorem A_v1 (h1 : V (Proc.devRef .tc main_arg1) = x1) :
    after opsA V (Proc.devRef .tc main_v1) = val_main_v1 (F := F) x1 := by
  after_results_simp
  rw [h1]
  rfl

set_option maxHeartbeats 4000000 in
theorem A_v3 (h1 : V (Proc.devRef .tc main_arg1) = x1) :
    after opsA V (Proc.devRef .tc main_v3) = val_main_v3 (F := F) x1 := by
  after_results_simp
  rw [h1]
  rfl

set_option maxHeartbeats 4000000 in
theorem A_v11 (h1 : V (Proc.devRef .tc main_arg1) = x1) :
    after opsA V (Proc.devRef .tc main_v11) = val_main_v11 (F := F) x1 := by
  after_results_simp
  rw [h1]
  rfl

set_option maxHeartbeats 8000000 in
theorem A_keep (r : Ref sig .tc) (hr : r = main_arg0 ∨ r = main_arg1 ∨ r = main_arg2 ∨ r = main_arg3 ∨ r = main_arg4 ∨ r = main_arg5 ∨ r = main_arg6 ∨ r = main_arg7) :
    after opsA V (Proc.devRef .tc r) = V (Proc.devRef .tc r) := by
  rcases hr with rfl | rfl | rfl | rfl | rfl | rfl | rfl | rfl <;> after_results_simp

/-! ## Stage B -/

set_option maxHeartbeats 8000000 in
theorem B_v41 (h24 : V (Proc.devRef .tc main_v24) = val_main_v24 (F := F) x0 x1) (h0 : V (Proc.devRef .tc main_arg0) = x0)
    (h2 : V (Proc.devRef .tc main_arg2) = x2) (h3 : V (Proc.devRef .tc main_arg3) = x3) (h4 : V (Proc.devRef .tc main_arg4) = x4) :
    after opsB V (Proc.devRef .tc main_v41) = val_main_v41 (F := F) x0 x1 x2 x3 x4 := by
  after_results_simp
  rw [h24, h0, h2, h3, h4]
  rfl

set_option maxHeartbeats 8000000 in
theorem B_keep (r : Ref sig .tc) (hr : r = main_arg0 ∨ r = main_arg1 ∨ r = main_arg2 ∨ r = main_arg3 ∨ r = main_arg4 ∨ r = main_arg5 ∨ r = main_arg6 ∨ r = main_arg7 ∨ r = main_v1 ∨ r = main_v3 ∨ r = main_v11) :
    after opsB V (Proc.devRef .tc r) = V (Proc.devRef .tc r) := by
  rcases hr with rfl | rfl | rfl | rfl | rfl | rfl | rfl | rfl | rfl | rfl | rfl <;> after_results_simp

/-! ## Stage C -/

set_option maxHeartbeats 8000000 in
theorem C_v54 (h41 : V (Proc.devRef .tc main_v41) = val_main_v41 (F := F) x0 x1 x2 x3 x4) (h1 : V (Proc.devRef .tc main_v1) = val_main_v1 (F := F) x1)
    (h3 : V (Proc.devRef .tc main_v3) = val_main_v3 (F := F) x1) (h11 : V (Proc.devRef .tc main_v11) = val_main_v11 (F := F) x1) :
    after opsC V (Proc.devRef .tc main_v54) = val_main_v54 (F := F) x0 x1 x2 x3 x4 := by
  after_results_simp
  rw [h41, h1, h3, h11]
  rfl

set_option maxHeartbeats 8000000 in
theorem C_keep (r : Ref sig .tc) (hr : r = main_arg0 ∨ r = main_arg1 ∨ r = main_arg2 ∨ r = main_arg3 ∨ r = main_arg4 ∨ r = main_arg5 ∨ r = main_arg6 ∨ r = main_arg7 ∨ r = main_v41) :
    after opsC V (Proc.devRef .tc r) = V (Proc.devRef .tc r) := by
  rcases hr with rfl | rfl | rfl | rfl | rfl | rfl | rfl | rfl | rfl <;> after_results_simp

/-! ## Stage D -/

set_option maxHeartbeats 8000000 in
set_option maxRecDepth 65536 in
theorem D_v71 (h41 : V (Proc.devRef .tc main_v41) = val_main_v41 (F := F) x0 x1 x2 x3 x4) (h54 : V (Proc.devRef .tc main_v54) = val_main_v54 (F := F) x0 x1 x2 x3 x4)
    (h5 : V (Proc.devRef .tc main_arg5) = x5) (h6 : V (Proc.devRef .tc main_arg6) = x6) (h7 : V (Proc.devRef .tc main_arg7) = x7) :
    after opsD V (Proc.devRef .tc main_v71) = val_main_v71 (F := F) x0 x1 x2 x3 x4 x5 x6 x7 := by
  after_results_simp
  rw [h41, h54, h5, h6, h7]
  rfl

set_option maxHeartbeats 8000000 in
theorem D_keep (r : Ref sig .tc) (hr : r = main_arg0 ∨ r = main_arg1 ∨ r = main_arg2 ∨ r = main_arg3 ∨ r = main_arg4 ∨ r = main_arg5 ∨ r = main_arg6 ∨ r = main_arg7) :
    after opsD V (Proc.devRef .tc r) = V (Proc.devRef .tc r) := by
  rcases hr with rfl | rfl | rfl | rfl | rfl | rfl | rfl | rfl <;> after_results_simp

/-! ## Stage E -/

set_option maxHeartbeats 8000000 in
set_option maxRecDepth 65536 in
theorem E_v72 (h71 : V (Proc.devRef .tc main_v71) = val_main_v71 (F := F) x0 x1 x2 x3 x4 x5 x6 x7) :
    after opsE V (Proc.devRef .tc main_v72) = val_main_v72 (F := F) x0 x1 x2 x3 x4 x5 x6 x7 := by
  after_results_simp
  rw [h71]
  simp only [val_main_v72, val_main_call2_v5, val_main_call2_v10, val_main_call2_v9, val_main_call2_v8, val_main_call2_v7,
    val_main_call2_v6, val_main_call2_v4, val_main_call2_v3, val_main_call2_v2, val_main_call2_v1, val_main_call2_v0,
    val_main_call2_cst, val_main_call2_cst_0, val_main_call2_cst_1]
  generalize val_main_v71 (F := F) x0 x1 x2 x3 x4 x5 x6 x7 = Y
  simp only [ofBuf_toBuf]
  have hY : ∀ (p1 : main_v71.ty = (⟨S100000x40, .f32⟩ : BufTy)) (p2 : main_v71.space ≠ .host) (p3 : main_v71.isScoped = false),
      (TRef.of (T := ⟨S100000x40, .f32⟩) main_v71 p1 p2 p3).ofBuf Y = Y := fun _ _ _ => rfl
  simp only [hY]
  rfl

set_option maxHeartbeats 8000000 in
theorem E_keep (r : Ref sig .tc) (hr : r = main_arg0 ∨ r = main_arg1 ∨ r = main_arg2 ∨ r = main_arg3 ∨ r = main_arg4 ∨ r = main_arg5 ∨ r = main_arg6 ∨ r = main_arg7) :
    after opsE V (Proc.devRef .tc r) = V (Proc.devRef .tc r) := by
  rcases hr with rfl | rfl | rfl | rfl | rfl | rfl | rfl | rfl <;> after_results_simp

/-! ## The whole fold -/

/-- An argument buffer ends as launched. -/
theorem arg_kept (W : Valuation τ sig (Elt F)) (r : Ref sig .tc) (hr : r = main_arg0 ∨ r = main_arg1 ∨ r = main_arg2 ∨ r = main_arg3 ∨ r = main_arg4 ∨ r = main_arg5 ∨ r = main_arg6 ∨ r = main_arg7) :
    after (Cert.RefRun.ops (F := F)) W (Proc.devRef .tc r) = W (Proc.devRef .tc r) := by
  rw [ops_split, after_append, after_append, after_append, after_append]
  have hB : r = main_arg0 ∨ r = main_arg1 ∨ r = main_arg2 ∨ r = main_arg3 ∨ r = main_arg4 ∨ r = main_arg5 ∨ r = main_arg6 ∨ r = main_arg7 ∨ r = main_v1 ∨ r = main_v3 ∨ r = main_v11 := by
    rcases hr with h | h | h | h | h | h | h | h <;> simp [h]
  have hC : r = main_arg0 ∨ r = main_arg1 ∨ r = main_arg2 ∨ r = main_arg3 ∨ r = main_arg4 ∨ r = main_arg5 ∨ r = main_arg6 ∨ r = main_arg7 ∨ r = main_v41 := by
    rcases hr with h | h | h | h | h | h | h | h <;> simp [h]
  exact (E_keep _ r hr).trans ((D_keep _ r hr).trans ((C_keep _ r hC).trans ((B_keep _ r hB).trans (A_keep _ r hr))))

/-- The result buffer ends at the last stage of the reference, read one operation at a time, of the launch arrays. -/
theorem result_eq (W : Valuation τ sig (Elt F)) :
    after (Cert.RefRun.ops (F := F)) W (Proc.devRef .tc main_v72)
      = val_main_v72 (F := F) (W (Proc.devRef .tc main_arg0)) (W (Proc.devRef .tc main_arg1)) (W (Proc.devRef .tc main_arg2)) (W (Proc.devRef .tc main_arg3))
          (W (Proc.devRef .tc main_arg4)) (W (Proc.devRef .tc main_arg5)) (W (Proc.devRef .tc main_arg6)) (W (Proc.devRef .tc main_arg7)) := by
  rw [ops_split, after_append, after_append, after_append, after_append]
  have a (k : Ref sig .tc) (hk : k = main_arg0 ∨ k = main_arg1 ∨ k = main_arg2 ∨ k = main_arg3 ∨ k = main_arg4 ∨ k = main_arg5 ∨ k = main_arg6 ∨ k = main_arg7) := A_keep W k hk
  have hA24 := A_v24 W _ _ rfl rfl
  have hA1 := A_v1 W _ rfl
  have hA3 := A_v3 W _ rfl
  have hA11 := A_v11 W _ rfl
  have hB41 := B_v41 (after opsA W) _ _ _ _ _ hA24 (a main_arg0 (Or.inl rfl)) (a main_arg2 (Or.inr (Or.inr (Or.inl rfl))))
    (a main_arg3 (Or.inr (Or.inr (Or.inr (Or.inl rfl))))) (a main_arg4 (Or.inr (Or.inr (Or.inr (Or.inr (Or.inl rfl))))))
  have b (k : Ref sig .tc) (hk : k = main_arg0 ∨ k = main_arg1 ∨ k = main_arg2 ∨ k = main_arg3 ∨ k = main_arg4 ∨ k = main_arg5 ∨ k = main_arg6 ∨ k = main_arg7 ∨ k = main_v1 ∨ k = main_v3 ∨ k = main_v11) := B_keep (after opsA W) k hk
  have hC54 := C_v54 (after opsB (after opsA W)) _ _ _ _ _ hB41 ((b main_v1 (Or.inr (Or.inr (Or.inr (Or.inr (Or.inr (Or.inr (Or.inr (Or.inr (Or.inl rfl)))))))))).trans hA1)
    ((b main_v3 (Or.inr (Or.inr (Or.inr (Or.inr (Or.inr (Or.inr (Or.inr (Or.inr (Or.inr (Or.inl rfl))))))))))).trans hA3) ((b main_v11 (Or.inr (Or.inr (Or.inr (Or.inr (Or.inr (Or.inr (Or.inr (Or.inr (Or.inr (Or.inr (rfl)))))))))))).trans hA11)
  have cc (k : Ref sig .tc) (hk : k = main_arg0 ∨ k = main_arg1 ∨ k = main_arg2 ∨ k = main_arg3 ∨ k = main_arg4 ∨ k = main_arg5 ∨ k = main_arg6 ∨ k = main_arg7 ∨ k = main_v41) := C_keep (after opsB (after opsA W)) k hk
  refine E_v72 (after opsD (after opsC (after opsB (after opsA W)))) _ _ _ _ _ _ _ _ ?_
  exact D_v71 (after opsC (after opsB (after opsA W))) _ _ _ _ _ _ _ _
    ((cc main_v41 (Or.inr (Or.inr (Or.inr (Or.inr (Or.inr (Or.inr (Or.inr (Or.inr (rfl)))))))))).trans hB41) hC54
    ((cc main_arg5 (Or.inr (Or.inr (Or.inr (Or.inr (Or.inr (Or.inl rfl))))))).trans ((b main_arg5 (Or.inr (Or.inr (Or.inr (Or.inr (Or.inr (Or.inl rfl))))))).trans (a main_arg5 (Or.inr (Or.inr (Or.inr (Or.inr (Or.inr (Or.inl rfl)))))))))
    ((cc main_arg6 (Or.inr (Or.inr (Or.inr (Or.inr (Or.inr (Or.inr (Or.inl rfl)))))))).trans ((b main_arg6 (Or.inr (Or.inr (Or.inr (Or.inr (Or.inr (Or.inr (Or.inl rfl)))))))).trans (a main_arg6 (Or.inr (Or.inr (Or.inr (Or.inr (Or.inr (Or.inr (Or.inl rfl))))))))))
    ((cc main_arg7 (Or.inr (Or.inr (Or.inr (Or.inr (Or.inr (Or.inr (Or.inr (Or.inl rfl))))))))).trans ((b main_arg7 (Or.inr (Or.inr (Or.inr (Or.inr (Or.inr (Or.inr (Or.inr (Or.inl rfl))))))))).trans (a main_arg7 (Or.inr (Or.inr (Or.inr (Or.inr (Or.inr (Or.inr (Or.inr (rfl)))))))))))

end Cert.RefStages

end
-- ==== Proof.Ref1.lean ====
/-
  The reference's first layer, read entry by entry.

  Read one operation at a time, entry (r, q) of the reference's first-layer output is: the two products
  (neighbour averages) · Wlᵀ and x · Wrᵀ at (r, q) — sums over k of row r against ROW q of the untransposed weights,
  since the reference transposes them first —, plus the bias at q, added in the order (· + b) + ·; then the division by
  max(√(row sum of squares), ε) and the clamp at zero.  Up to the order of one addition this is the layer's row
  function of rows r of the input features and of their neighbour averages: the same function the kernel's first
  region computes.
-/
import proofs.«107155_j2190433321456_1_alg».proof.Proof.RefRead
import proofs.«107155_j2190433321456_1_alg».proof.Proof.KArr0
import proofs.«107155_j2190433321456_1_alg».proof.Proof.Spec
import Idealize.ShloMosaic.Lib.ValueIdx
import Idealize.ShloMosaic.Lib.ValueLayout
import Idealize.ShloMosaic.PureOps.Ideal.Laws

set_option maxRecDepth 16384

noncomputable section

namespace Cert.Ref1

open Idealize.ShloMosaic Idealize.ShloMosaic.ValueIdx Cert.ReferenceIdeal Cert.ReferenceIdeal.Gen Cert.ReferenceIdeal.ReadP
open Cert.KArr0 (rowOf colOf)

variable (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal))

/-! ## The reference's index maps, composed, are the entry's row and column -/

theorem i_l26 (i : S100000x128.Idx) (k : Fin 128) : lidx_main_v26 i k = ix2 (rowOf i) k :=
  funext fun a => by match a with | ⟨0, _⟩ => rfl | ⟨1, _⟩ => rfl
theorem i_r26 (i : S100000x128.Idx) (k : Fin 128) : idx_main_v25 (ridx_main_v26 i k) = ix2 (colOf i) k :=
  funext fun a => by match a with | ⟨0, _⟩ => rfl | ⟨1, _⟩ => rfl
theorem i_l31 (i : S100000x128.Idx) (k : Fin 128) : lidx_main_v31 i k = ix2 (rowOf i) k :=
  funext fun a => by match a with | ⟨0, _⟩ => rfl | ⟨1, _⟩ => rfl
theorem i_r31 (i : S100000x128.Idx) (k : Fin 128) : idx_main_v30 (ridx_main_v31 i k) = ix2 (colOf i) k :=
  funext fun a => by match a with | ⟨0, _⟩ => rfl | ⟨1, _⟩ => rfl
theorem i_b (i : S100000x128.Idx) : idx_main_v27 (idx_main_v28 i) = ix1 (colOf i) :=
  funext fun a => by match a with | ⟨0, _⟩ => rfl
theorem i_row (i : S100000x128.Idx) (k : Fin 128) : idx_main_v34 (idx_main_v35 (idx_main_v39 i)) k = ix2 (rowOf i) k :=
  funext fun a => by match a with | ⟨0, _⟩ => rfl | ⟨1, _⟩ => rfl
theorem i_self (i : S100000x128.Idx) : ix2 (rowOf i) (colOf i) = i :=
  funext fun a => by match a with | ⟨0, _⟩ => rfl | ⟨1, _⟩ => rfl

/-- The pre-activation at an entry: the row function of rows `rowOf i`, at column `colOf i`. -/
theorem pre_apply (i : S100000x128.Idx) :
    val_main_v32 (F := Ideal) x0 x1 x2 x3 x4 i
      = Cert.Sage.pre (fun k => val_main_v24 (F := Ideal) x0 x1 (ix2 (rowOf i) k)) (fun k => x0 (ix2 (rowOf i) k))
          (fun j k => x2 (ix2 j k)) (fun j k => x4 (ix2 j k)) (fun j => x3 (ix1 j)) (colOf i) := by
  rw [val_main_v32_apply, val_main_v29_apply, val_main_v26_apply, val_main_v31_apply, val_main_v28_apply, val_main_v27_apply]
  simp only [val_main_v25_apply, val_main_v30_apply, i_l26, i_r26, i_l31, i_r31, i_b, Ideal.addf_def]
  unfold Cert.Sage.pre
  exact add_right_comm _ _ _

/-- The float zero a host sum starts from is the real zero. -/
theorem cst5_zero : val_main_cst_5 (F := Ideal) (Shape.Idx.first h_S_) = 0 := Ideal.ofBits_zero_f32

/-- A square of the pre-activation, at an entry of the row the norm sums over. -/
theorem sq_apply (i : S100000x128.Idx) (k : Fin 128) :
    val_main_v33 (F := Ideal) x0 x1 x2 x3 x4 (idx_main_v34 (idx_main_v35 (idx_main_v39 i)) k)
      = val_main_v32 (F := Ideal) x0 x1 x2 x3 x4 (ix2 (rowOf i) k) * val_main_v32 (F := Ideal) x0 x1 x2 x3 x4 (ix2 (rowOf i) k) := by
  rw [i_row, val_main_v33_apply]
  exact Ideal.mulf_def _ _

/-- The first layer's output at an entry: the normalised, rectified pre-activation of its row. -/
theorem layer_apply (i : S100000x128.Idx) :
    val_main_v41 (F := Ideal) x0 x1 x2 x3 x4 i
      = Cert.Sage.normRelu (fun j => val_main_v32 (F := Ideal) x0 x1 x2 x3 x4 (ix2 (rowOf i) j)) (colOf i) := by
  rw [val_main_v41_apply, val_main_v40_apply, val_main_v39_apply, val_main_v38_apply, val_main_v36_apply, val_main_v35_apply,
    val_main_v34_apply, val_main_v37_apply, val_main_call0_v0_apply]
  rw [cst5_zero]
  rw [zero_add]
  rw [Finset.sum_congr rfl (fun k _ => sq_apply x0 x1 x2 x3 x4 i k)]
  generalize val_main_v32 (F := Ideal) x0 x1 x2 x3 x4 = P
  unfold Cert.Sage.normRelu
  beta_reduce
  rw [i_self]
  rfl

/-- The reference's first layer is the layer array of the input features and their neighbour averages. -/
theorem layer_eq :
    val_main_v41 (F := Ideal) x0 x1 x2 x3 x4
      = Cert.KArr0.layerArr x0 (val_main_v24 (F := Ideal) x0 x1) x2 x4 (shapeCast Cert.KernelIdeal.S1x128 x3 Cert.KernelIdeal.Gen.shapeCasts_S128_S1x128) := by
  funext i
  rw [layer_apply]
  unfold Cert.KArr0.layerArr Cert.Sage.layer
  refine congrArg (fun v => Cert.Sage.normRelu v (colOf i)) (funext fun j => ?_)
  rw [pre_apply]
  generalize val_main_v24 (F := Ideal) x0 x1 = A
  unfold Cert.Sage.pre
  beta_reduce
  rw [shapeCast_a_1a_apply]

end Cert.Ref1

end
-- ==== Proof.Ref2.lean ====
/-
  The reference's second layer and its log-softmax, read entry by entry.

  The second layer repeats the first on the first layer's output `H` and on ITS neighbour averages, with the 40 × 128
  weights: entry (r, q) of the pre-activation is  Σ_k avg(r,k)·Wl(q,k) + b(q) + Σ_k H(r,k)·Wr(q,k), then the row is
  divided by max(‖row‖₂, ε) and clamped at zero.  The log-softmax then subtracts from every entry of a row the row's
  largest entry — a maximum taken from −∞, which the reference bounds below by −∞ once more, changing nothing — and
  the logarithm of the row sum of exponentials of the shifted entries.
-/
import proofs.«107155_j2190433321456_1_alg».proof.Proof.RefRead
import proofs.«107155_j2190433321456_1_alg».proof.Proof.KArr1
import proofs.«107155_j2190433321456_1_alg».proof.Proof.Spec
import proofs.«107155_j2190433321456_1_alg».proof.Proof.LibRowOps
import Idealize.ShloMosaic.Lib.ValueIdx
import Idealize.ShloMosaic.Lib.ValueLayout
import Idealize.ShloMosaic.PureOps.Ideal.Laws

set_option maxRecDepth 16384

noncomputable section

namespace Cert.Ref2

open Idealize.ShloMosaic Idealize.ShloMosaic.ValueIdx Cert.ReferenceIdeal Cert.ReferenceIdeal.Gen Cert.ReferenceIdeal.ReadP
open Cert.KArr1 (rowOf colOf)

variable (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S40x128, .f32⟩ : BufTy).Contents (Elt Ideal)) (x6 : (⟨S40, .f32⟩ : BufTy).Contents (Elt Ideal)) (x7 : (⟨S40x128, .f32⟩ : BufTy).Contents (Elt Ideal))

/-! ## The reference's index maps, composed, are the entry's row and column -/

theorem i_l56 (i : S100000x40.Idx) (k : Fin 128) : lidx_main_v56 i k = ix2 (rowOf i) k :=
  funext fun a => by match a with | ⟨0, _⟩ => rfl | ⟨1, _⟩ => rfl
theorem i_r56 (i : S100000x40.Idx) (k : Fin 128) : idx_main_v55 (ridx_main_v56 i k) = ix2 (colOf i) k :=
  funext fun a => by match a with | ⟨0, _⟩ => rfl | ⟨1, _⟩ => rfl
theorem i_l61 (i : S100000x40.Idx) (k : Fin 128) : lidx_main_v61 i k = ix2 (rowOf i) k :=
  funext fun a => by match a with | ⟨0, _⟩ => rfl | ⟨1, _⟩ => rfl
theorem i_r61 (i : S100000x40.Idx) (k : Fin 128) : idx_main_v60 (ridx_main_v61 i k) = ix2 (colOf i) k :=
  funext fun a => by match a with | ⟨0, _⟩ => rfl | ⟨1, _⟩ => rfl
theorem i_b (i : S100000x40.Idx) : idx_main_v57 (idx_main_v58 i) = ix1 (colOf i) :=
  funext fun a => by match a with | ⟨0, _⟩ => rfl
theorem i_row (i : S100000x40.Idx) (k : Fin 40) : idx_main_v64 (idx_main_v65 (idx_main_v69 i)) k = ix2 (rowOf i) k :=
  funext fun a => by match a with | ⟨0, _⟩ => rfl | ⟨1, _⟩ => rfl
theorem i_self (i : S100000x40.Idx) : ix2 (rowOf i) (colOf i) = i :=
  funext fun a => by match a with | ⟨0, _⟩ => rfl | ⟨1, _⟩ => rfl
theorem i_mrow (i : S100000x40.Idx) : idx_main_call2_v3 (idx_main_call2_v4 i) = ix1 (rowOf i) :=
  funext fun a => by match a with | ⟨0, _⟩ => rfl
theorem i_srow (i : S100000x40.Idx) (k : Fin 40) : idx_main_call2_v7 (idx_main_call2_v8 (idx_main_call2_v10 i)) k = ix2 (rowOf i) k :=
  funext fun a => by match a with | ⟨0, _⟩ => rfl | ⟨1, _⟩ => rfl

/-! ## The dense half -/

/-- The pre-activation at an entry: the row function of rows `rowOf i`, at column `colOf i`. -/
theorem pre_apply (i : S100000x40.Idx) :
    val_main_v62 (F := Ideal) x0 x1 x2 x3 x4 x5 x6 x7 i
      = Cert.Sage.pre (fun k => val_main_v54 (F := Ideal) x0 x1 x2 x3 x4 (ix2 (rowOf i) k)) (fun k => val_main_v41 (F := Ideal) x0 x1 x2 x3 x4 (ix2 (rowOf i) k))
          (fun j k => x5 (ix2 j k)) (fun j k => x7 (ix2 j k)) (fun j => x6 (ix1 j)) (colOf i) := by
  rw [val_main_v62_apply, val_main_v59_apply, val_main_v56_apply, val_main_v61_apply, val_main_v58_apply, val_main_v57_apply]
  simp only [val_main_v55_apply, val_main_v60_apply, i_l56, i_r56, i_l61, i_r61, i_b, Ideal.addf_def]
  unfold Cert.Sage.pre
  exact add_right_comm _ _ _

theorem cst10_zero : val_main_cst_10 (F := Ideal) (Shape.Idx.first h_S_) = 0 := Ideal.ofBits_zero_f32

theorem sq_apply (i : S100000x40.Idx) (k : Fin 40) :
    val_main_v63 (F := Ideal) x0 x1 x2 x3 x4 x5 x6 x7 (idx_main_v64 (idx_main_v65 (idx_main_v69 i)) k)
      = val_main_v62 (F := Ideal) x0 x1 x2 x3 x4 x5 x6 x7 (ix2 (rowOf i) k) * val_main_v62 (F := Ideal) x0 x1 x2 x3 x4 x5 x6 x7 (ix2 (rowOf i) k) := by
  rw [i_row, val_main_v63_apply]
  exact Ideal.mulf_def _ _

/-- The second layer's rectified output at an entry: the normalised, rectified pre-activation of its row. -/
theorem layer_apply (i : S100000x40.Idx) :
    val_main_v71 (F := Ideal) x0 x1 x2 x3 x4 x5 x6 x7 i
      = Cert.Sage.normRelu (fun j => val_main_v62 (F := Ideal) x0 x1 x2 x3 x4 x5 x6 x7 (ix2 (rowOf i) j)) (colOf i) := by
  rw [val_main_v71_apply, val_main_v70_apply, val_main_v69_apply, val_main_v68_apply, val_main_v66_apply, val_main_v65_apply,
    val_main_v64_apply, val_main_v67_apply, val_main_call1_v0_apply]
  rw [cst10_zero]
  rw [zero_add]
  rw [Finset.sum_congr rfl (fun k _ => sq_apply x0 x1 x2 x3 x4 x5 x6 x7 i k)]
  generalize val_main_v62 (F := Ideal) x0 x1 x2 x3 x4 x5 x6 x7 = P
  unfold Cert.Sage.normRelu
  beta_reduce
  rw [i_self]
  rfl

/-! ## The log-softmax -/

/-- Bounding below by −∞ changes nothing. -/
theorem fninf_max (y : EReal) : max (Ideal.ofBits .f32 0xFF800000#32) y = y := by
  rw [show Ideal.ofBits .f32 0xFF800000#32 = ⊥ from Cert.Sage.fninf_eq]; exact max_bot_left y

/-- The row maximum the reference subtracts from row `r`. -/
theorem rowmax_apply (r : Fin 100000) :
    val_main_call2_v2 (F := Ideal) x0 x1 x2 x3 x4 x5 x6 x7 (ix1 r) = Cert.Sage.rowMax (fun j => val_main_v71 (F := Ideal) x0 x1 x2 x3 x4 x5 x6 x7 (ix2 r j)) := by
  rw [val_main_call2_v2_apply, val_main_call2_v1_apply, val_main_call2_cst_0_apply]
  unfold val_main_call2_v0
  generalize val_main_v71 (F := Ideal) x0 x1 x2 x3 x4 x5 x6 x7 = U
  refine (congrArg (FloatOps.maximumf (FloatOps.ofBits (F := Ideal) .f32 0xFF800000#32))
    (Cert.LibRowOps.hostRowMax U (val_main_call2_cst (F := Ideal)) reducesTo_S100000x40_S100000_d1 (by decide) h_S_ r)).trans ?_
  rw [val_main_call2_cst_apply]
  unfold Cert.Sage.rowMax Cert.Sage.fninf
  rw [Ideal.maximumf_def, Ideal.ofBits_def]
  exact fninf_max _

/-- An entry shifted by its row's maximum. -/
theorem shift_apply (y : S100000x40.Idx) :
    val_main_call2_v5 (F := Ideal) x0 x1 x2 x3 x4 x5 x6 x7 y
      = val_main_v71 (F := Ideal) x0 x1 x2 x3 x4 x5 x6 x7 y - Cert.Sage.rowMax (fun j => val_main_v71 (F := Ideal) x0 x1 x2 x3 x4 x5 x6 x7 (ix2 (rowOf y) j)) := by
  rw [val_main_call2_v5_apply, val_main_call2_v4_apply, val_main_call2_v3_apply, i_mrow, rowmax_apply]
  exact Ideal.subf_def _ _

theorem cst1_zero : val_main_call2_cst_1 (F := Ideal) (Shape.Idx.first h_S_) = 0 := Ideal.ofBits_zero_f32

/-- The exponential of a shifted entry of the row the sum runs over. -/
theorem exp_apply (i : S100000x40.Idx) (k : Fin 40) :
    val_main_call2_v6 (F := Ideal) x0 x1 x2 x3 x4 x5 x6 x7 (idx_main_call2_v7 (idx_main_call2_v8 (idx_main_call2_v10 i)) k)
      = Ideal.exp (val_main_v71 (F := Ideal) x0 x1 x2 x3 x4 x5 x6 x7 (ix2 (rowOf i) k)
          - Cert.Sage.rowMax (fun j => val_main_v71 (F := Ideal) x0 x1 x2 x3 x4 x5 x6 x7 (ix2 (rowOf i) j))) := by
  rw [i_srow, val_main_call2_v6_apply, shift_apply]
  generalize val_main_v71 (F := Ideal) x0 x1 x2 x3 x4 x5 x6 x7 = U
  exact Ideal.hostUnary_exp_def _

/-- The reference's result at an entry: the log-softmax of the second layer's rectified row. -/
theorem logsoftmax_apply (i : S100000x40.Idx) :
    val_main_v72 (F := Ideal) x0 x1 x2 x3 x4 x5 x6 x7 i
      = Cert.Sage.logSoftmax (fun j => val_main_v71 (F := Ideal) x0 x1 x2 x3 x4 x5 x6 x7 (ix2 (rowOf i) j)) (colOf i) := by
  rw [val_main_v72_apply, val_main_call2_v10_apply, val_main_call2_v9_apply, val_main_call2_v8_apply, val_main_call2_v7_apply]
  rw [cst1_zero]
  rw [zero_add]
  rw [Finset.sum_congr rfl (fun k _ => exp_apply x0 x1 x2 x3 x4 x5 x6 x7 i k), shift_apply]
  generalize val_main_v71 (F := Ideal) x0 x1 x2 x3 x4 x5 x6 x7 = U
  unfold Cert.Sage.logSoftmax
  beta_reduce
  rw [i_self]
  rfl

/-- The reference's result is the second layer array of the first layer's output and of its neighbour averages. -/
theorem out_eq :
    val_main_v72 (F := Ideal) x0 x1 x2 x3 x4 x5 x6 x7
      = Cert.KArr1.layerArr (val_main_v41 (F := Ideal) x0 x1 x2 x3 x4) (val_main_v54 (F := Ideal) x0 x1 x2 x3 x4) x5 x7
          (shapeCast Cert.KernelIdeal.S1x40 x6 Cert.KernelIdeal.Gen.shapeCasts_S40_S1x40) := by
  funext i
  rw [logsoftmax_apply]
  unfold Cert.KArr1.layerArr Cert.Sage.layer
  refine congrArg (fun v => Cert.Sage.logSoftmax v (colOf i)) (funext fun j => ?_)
  rw [layer_apply]
  show Cert.Sage.normRelu (fun j' => val_main_v62 (F := Ideal) x0 x1 x2 x3 x4 x5 x6 x7 (ix2 (rowOf i) j')) j = _
  refine congrArg (fun v => Cert.Sage.normRelu v j) (funext fun j' => ?_)
  rw [pre_apply]
  generalize val_main_v54 (F := Ideal) x0 x1 x2 x3 x4 = A
  generalize val_main_v41 (F := Ideal) x0 x1 x2 x3 x4 = H
  unfold Cert.Sage.pre
  beta_reduce
  rw [shapeCast_a_1a_apply]

end Cert.Ref2

end
-- ==== Proof.Ref.lean ====
/-
  The reference computes the network.

  Read one operation at a time, the reference's result is the second layer array of its first layer's output and of
  that output's neighbour averages (Proof/Ref2.lean); its first layer's output is the first layer array of the input
  features and of their neighbour averages (Proof/Ref1.lean); and both neighbour averages are the reference's own chain
  of gather, scatter-add and scaling — operation for operation the chain the kernel program runs on the host, so the
  two are one function, carried unopened.  Together: the reference's result is `Network.network` of its arguments.
-/
import proofs.«107155_j2190433321456_1_alg».proof.Proof.Ref1
import proofs.«107155_j2190433321456_1_alg».proof.Proof.Ref2
import proofs.«107155_j2190433321456_1_alg».proof.Proof.Network

set_option maxRecDepth 16384

noncomputable section

namespace Cert.Ref

open Idealize.ShloMosaic Cert.ReferenceIdeal Cert.ReferenceIdeal.Gen Cert.ReferenceIdeal.ReadP

variable (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S40x128, .f32⟩ : BufTy).Contents (Elt Ideal)) (x6 : (⟨S40, .f32⟩ : BufTy).Contents (Elt Ideal)) (x7 : (⟨S40x128, .f32⟩ : BufTy).Contents (Elt Ideal))

/-- The reference's first aggregation is the shared host chain applied to the input features. -/
theorem agg0_eq : val_main_v24 (F := Ideal) x0 x1 = Cert.Agg.agg x0 x1 := rfl

/-- The reference's second aggregation is the same chain applied to its first layer's output. -/
theorem agg1_eq : val_main_v54 (F := Ideal) x0 x1 x2 x3 x4 = Cert.Agg.agg (val_main_v41 (F := Ideal) x0 x1 x2 x3 x4) x1 := by
  unfold val_main_v54 val_main_v51 val_main_v48
  generalize val_main_v41 (F := Ideal) x0 x1 x2 x3 x4 = H
  rfl

/-- The reference's result is the network of its arguments. -/
theorem network_eq : val_main_v72 (F := Ideal) x0 x1 x2 x3 x4 x5 x6 x7 = Cert.Network.network x0 x1 x2 x3 x4 x5 x6 x7 := by
  rw [Cert.Ref2.out_eq, agg1_eq, Cert.Ref1.layer_eq, agg0_eq]
  rfl

end Cert.Ref

end
-- ==== Proof.lean ====
/-
  The certificate of a two-layer graph convolution (mean aggregation, L2-normalised, rectified; log-softmax on top).

  The kernel program runs the neighbour aggregation on the host and each layer's dense half — two matrix products,
  bias, row normalisation, rectifier, and for the last layer the row log-softmax — as one tiled region over blocks of
  2000 nodes.  The reference is plain array code.  On the extended reals both compute ONE function of the eight
  arguments, `Network.network`:
    * the aggregation is the same chain of host operations in both programs and is carried as one function (Agg);
    * a region's output array is, row by row, the layer's row function of the rows of its two input arrays
      (KBody0/1: the body at an entry; KArr0/1: from the blocks to the array; KHost: the program's four stretches);
    * the reference's operations, read one at a time, give the same row function up to the order of one addition,
      which on the extended reals is commutative and associative (Ref1, Ref2, Ref; RefRun, RefStages: its run).
  No finiteness of the inputs is used.  The three frames are the generated ones (the reference's is its run with the
  result dropped); the idealisation ledger is empty.
-/
import proofs.«107155_j2190433321456_1_alg».proof.Defs
import proofs.«107155_j2190433321456_1_alg».proof.Proof.Gen.Kernel
import proofs.«107155_j2190433321456_1_alg».proof.Proof.Gen.Kernel.Skeleton
import proofs.«107155_j2190433321456_1_alg».proof.Proof.Gen.Kernel.Launch
import proofs.«107155_j2190433321456_1_alg».proof.Proof.Gen.Kernel.Points
import proofs.«107155_j2190433321456_1_alg».proof.Proof.Gen.Kernel.Frame
import proofs.«107155_j2190433321456_1_alg».proof.Proof.Gen.KernelIdeal
import proofs.«107155_j2190433321456_1_alg».proof.Proof.Gen.KernelIdeal.Skeleton
import proofs.«107155_j2190433321456_1_alg».proof.Proof.Gen.KernelIdeal.Launch
import proofs.«107155_j2190433321456_1_alg».proof.Proof.Gen.KernelIdeal.Points
import proofs.«107155_j2190433321456_1_alg».proof.Proof.Gen.KernelIdeal.Frame
import proofs.«107155_j2190433321456_1_alg».proof.Proof.Gen.ReferenceIdeal
import proofs.«107155_j2190433321456_1_alg».proof.Proof.Gen.Pre_finite_inputs
import proofs.«107155_j2190433321456_1_alg».proof.Proof.KRun
import proofs.«107155_j2190433321456_1_alg».proof.Proof.KHost
import proofs.«107155_j2190433321456_1_alg».proof.Proof.RefRun
import proofs.«107155_j2190433321456_1_alg».proof.Proof.RefStages
import proofs.«107155_j2190433321456_1_alg».proof.Proof.Ref
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference runs and leaves its arguments alone: its run, with the result dropped. -/
theorem frame_ri : Cert.frame_ReferenceIdeal := fun m ρ _ =>
  (θ_run Cert.ReferenceIdeal.defs _ _).mono (fun r h c =>
    ⟨(h c Cert.ReferenceIdeal.main_arg0).trans (Cert.RefStages.arg_kept _ Cert.ReferenceIdeal.main_arg0 (Or.inl rfl)),
     (h c Cert.ReferenceIdeal.main_arg1).trans (Cert.RefStages.arg_kept _ Cert.ReferenceIdeal.main_arg1 (Or.inr (Or.inl rfl))),
     (h c Cert.ReferenceIdeal.main_arg2).trans (Cert.RefStages.arg_kept _ Cert.ReferenceIdeal.main_arg2 (Or.inr (Or.inr (Or.inl rfl)))),
     (h c Cert.ReferenceIdeal.main_arg3).trans (Cert.RefStages.arg_kept _ Cert.ReferenceIdeal.main_arg3 (Or.inr (Or.inr (Or.inr (Or.inl rfl))))),
     (h c Cert.ReferenceIdeal.main_arg4).trans (Cert.RefStages.arg_kept _ Cert.ReferenceIdeal.main_arg4 (Or.inr (Or.inr (Or.inr (Or.inr (Or.inl rfl)))))),
     (h c Cert.ReferenceIdeal.main_arg5).trans (Cert.RefStages.arg_kept _ Cert.ReferenceIdeal.main_arg5 (Or.inr (Or.inr (Or.inr (Or.inr (Or.inr (Or.inl rfl))))))),
     (h c Cert.ReferenceIdeal.main_arg6).trans (Cert.RefStages.arg_kept _ Cert.ReferenceIdeal.main_arg6 (Or.inr (Or.inr (Or.inr (Or.inr (Or.inr (Or.inr (Or.inl rfl)))))))),
     (h c Cert.ReferenceIdeal.main_arg7).trans (Cert.RefStages.arg_kept _ Cert.ReferenceIdeal.main_arg7 (Or.inr (Or.inr (Or.inr (Or.inr (Or.inr (Or.inr (Or.inr (rfl)))))))))⟩)
    (Cert.RefRun.run (F := Ideal) m ρ)

/-- From memories agreeing on the arguments, both idealised programs end with the network of the arguments in their
    result buffers, and the arguments unchanged. -/
theorem algebraic : Cert.algebraic_KernelIdeal_ReferenceIdeal := by
  intro m ρ m' ρ' _ hagree
  refine ⟨fun c => Cert.Network.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KHost.result_eq m ρ c), (h c).2⟩)
      (Cert.KRun.run_value (F := Ideal) m ρ)
  · refine (θ_run Cert.ReferenceIdeal.defs _ _).mono (fun r h c => ⟨?_,
      (h c Cert.ReferenceIdeal.main_arg0).trans (Cert.RefStages.arg_kept _ Cert.ReferenceIdeal.main_arg0 (Or.inl rfl)),
      (h c Cert.ReferenceIdeal.main_arg1).trans (Cert.RefStages.arg_kept _ Cert.ReferenceIdeal.main_arg1 (Or.inr (Or.inl rfl))),
      (h c Cert.ReferenceIdeal.main_arg2).trans (Cert.RefStages.arg_kept _ Cert.ReferenceIdeal.main_arg2 (Or.inr (Or.inr (Or.inl rfl)))),
      (h c Cert.ReferenceIdeal.main_arg3).trans (Cert.RefStages.arg_kept _ Cert.ReferenceIdeal.main_arg3 (Or.inr (Or.inr (Or.inr (Or.inl rfl))))),
      (h c Cert.ReferenceIdeal.main_arg4).trans (Cert.RefStages.arg_kept _ Cert.ReferenceIdeal.main_arg4 (Or.inr (Or.inr (Or.inr (Or.inr (Or.inl rfl)))))),
      (h c Cert.ReferenceIdeal.main_arg5).trans (Cert.RefStages.arg_kept _ Cert.ReferenceIdeal.main_arg5 (Or.inr (Or.inr (Or.inr (Or.inr (Or.inr (Or.inl rfl))))))),
      (h c Cert.ReferenceIdeal.main_arg6).trans (Cert.RefStages.arg_kept _ Cert.ReferenceIdeal.main_arg6 (Or.inr (Or.inr (Or.inr (Or.inr (Or.inr (Or.inr (Or.inl rfl)))))))),
      (h c Cert.ReferenceIdeal.main_arg7).trans (Cert.RefStages.arg_kept _ Cert.ReferenceIdeal.main_arg7 (Or.inr (Or.inr (Or.inr (Or.inr (Or.inr (Or.inr (Or.inr (rfl)))))))))⟩)
      (Cert.RefRun.run (F := Ideal) m' ρ')
    obtain ⟨e0, e1, e2, e3, e4, e5, e6, e7⟩ := hagree c
    refine (h c Cert.ReferenceIdeal.main_v72).trans ((Cert.RefStages.result_eq _).trans ?_)
    refine (Cert.Ref.network_eq _ _ _ _ _ _ _ _).trans ?_
    show Cert.Network.network (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
